-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S2x16x2048x2048 : Shape := ⟨4, ![2, 16, 2048, 2048]⟩
abbrev S1x256x128 : Shape := ⟨3, ![1, 256, 128]⟩
abbrev S1x2048x128 : Shape := ⟨3, ![1, 2048, 128]⟩
abbrev S1x2x256x2048 : Shape := ⟨4, ![1, 2, 256, 2048]⟩
abbrev S256x128 : Shape := ⟨2, ![256, 128]⟩
abbrev S2048x128 : Shape := ⟨2, ![2048, 128]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S1x1x256x2048 : Shape := ⟨4, ![1, 1, 256, 2048]⟩
abbrev S1x256x64 : Shape := ⟨3, ![1, 256, 64]⟩

abbrev nBuf : Space → Nat
  | .hbm => 33
  | .vmem => 34
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4096x1024, .f32⟩
  | .hbm, ⟨12, _⟩ => ⟨S1024x1024, .bf16⟩
  | .hbm, ⟨13, _⟩ => ⟨S1x1024, .f32⟩
  | .hbm, ⟨14, _⟩ => ⟨S4096x1024, .bf16⟩
  | .hbm, ⟨15, _⟩ => ⟨S2x2048x1024, .bf16⟩
  | .hbm, ⟨16, _⟩ => ⟨S4096x1024, .f32⟩
  | .hbm, ⟨17, _⟩ => ⟨S1024x1024, .bf16⟩
  | .hbm, ⟨18, _⟩ => ⟨S1x1024, .f32⟩
  | .hbm, ⟨19, _⟩ => ⟨S4096x1024, .bf16⟩
  | .hbm, ⟨20, _⟩ => ⟨S2x2048x1024, .bf16⟩
  | .hbm, ⟨21, _⟩ => ⟨S4096x1024, .f32⟩
  | .hbm, ⟨22, _⟩ => ⟨S1024x1024, .bf16⟩
  | .hbm, ⟨23, _⟩ => ⟨S1x1024, .f32⟩
  | .hbm, ⟨24, _⟩ => ⟨S4096x1024, .bf16⟩
  | .hbm, ⟨25, _⟩ => ⟨S2x2048x1024, .bf16⟩
  | .hbm, ⟨26, _⟩ => ⟨S2x2048x1024, .bf16⟩
  | .hbm, ⟨27, _⟩ => ⟨S2x16x2048x2048, .f32⟩
  | .hbm, ⟨28, _⟩ => ⟨S4096x1024, .bf16⟩
  | .hbm, ⟨29, _⟩ => ⟨S1024x1024, .bf16⟩
  | .hbm, ⟨30, _⟩ => ⟨S1x1024, .f32⟩
  | .hbm, ⟨31, _⟩ => ⟨S4096x1024, .f32⟩
  | .hbm, ⟨32, _⟩ => ⟨S2x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1x256x128, .bf16⟩
  | .local _ .vmem, ⟨19, _⟩ => ⟨S1x256x128, .bf16⟩
  | .local _ .vmem, ⟨20, _⟩ => ⟨S1x2048x128, .bf16⟩
  | .local _ .vmem, ⟨21, _⟩ => ⟨S1x2048x128, .bf16⟩
  | .local _ .vmem, ⟨22, _⟩ => ⟨S1x2048x128, .bf16⟩
  | .local _ .vmem, ⟨23, _⟩ => ⟨S1x2048x128, .bf16⟩
  | .local _ .vmem, ⟨24, _⟩ => ⟨S1x256x128, .bf16⟩
  | .local _ .vmem, ⟨25, _⟩ => ⟨S1x256x128, .bf16⟩
  | .local _ .vmem, ⟨26, _⟩ => ⟨S1x2x256x2048, .f32⟩
  | .local _ .vmem, ⟨27, _⟩ => ⟨S1x2x256x2048, .f32⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1x1024, .f32⟩
  | .local _ .vmem, ⟨32, _⟩ => ⟨S1024x1024, .f32⟩
  | .local _ .vmem, ⟨33, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![2, 8, 8], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc3_transform_4 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage3_0 : Fin 2 → Memref sig .tc .vmem S1x256x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x2048x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S1x2048x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1x256x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev stage3_4 : Fin 2 → Memref sig .tc .vmem S1x2x256x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S2x2048x1024_S4096x1024 : S2x2048x1024.ShapeCasts S4096x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S4096x1024_S2x2048x1024 : S4096x1024.ShapeCasts S2x2048x1024
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S256x128_o0_0_S256x64 : S256x128.Slices ![0, 0] S256x64
  slices_S2048x128_o0_0_S2048x64 : S2048x128.Slices ![0, 0] S2048x64
  reduces_S256x2048_S256 : S256x2048.Reduces [1] S256
  shapeCasts_S256_S256x1 : S256.ShapeCasts S256x1
  broadcasts_S256x1_S256x2048 : S256x1.Broadcasts S256x2048
  inb_S1x2x256x2048_S1x1x256x2048_0_0_0_0 : ∀ a, (![0, 0, 0, 0] : Fin 4 → Nat) a + S1x1x256x2048.size a ≤ S1x2x256x2048.size a
  h_S1x1x256x2048 : 0 < S1x1x256x2048.numel
  shapeCasts_S1x1x256x2048_S256x2048 : S1x1x256x2048.ShapeCasts S256x2048
  shapeCasts_S256x2048_S1x1x256x2048 : S256x2048.ShapeCasts S1x1x256x2048
  inb_S1x256x128_S1x256x64_0_0_0 : ∀ a, (![0, 0, 0] : Fin 3 → Nat) a + S1x256x64.size a ≤ S1x256x128.size a
  h_S1x256x64 : 0 < S1x256x64.numel
  shapeCasts_S1x256x64_S256x64 : S1x256x64.ShapeCasts S256x64
  shapeCasts_S256x64_S1x256x64 : S256x64.ShapeCasts S1x256x64
  packedbf16_S1x256x128_S1x256x64_0_0_0 : (Rect.unit (s := S1x256x128) ![0, 0, 0] S1x256x64.size inb_S1x256x128_S1x256x64_0_0_0).PackedRows (EltTy.packing .bf16)
  slices_S256x128_o0_64_S256x64 : S256x128.Slices ![0, 64] S256x64
  slices_S2048x128_o0_64_S2048x64 : S2048x128.Slices ![0, 64] S2048x64
  inb_S1x2x256x2048_S1x1x256x2048_0_1_0_0 : ∀ a, (![0, 1, 0, 0] : Fin 4 → Nat) a + S1x1x256x2048.size a ≤ S1x2x256x2048.size a
  inb_S1x256x128_S1x256x64_0_0_64 : ∀ a, (![0, 0, 64] : Fin 3 → Nat) a + S1x256x64.size a ≤ S1x256x128.size a
  packedbf16_S1x256x128_S1x256x64_0_0_64 : (Rect.unit (s := S1x256x128) ![0, 0, 64] S1x256x64.size inb_S1x256x128_S1x256x64_0_0_64).PackedRows (EltTy.packing .bf16)
  dot_S1024x1024_S1024x1024_S1024x1024_1_1_0_0_n_n_wf : DotDims.WF S1024x1024 S1024x1024 S1024x1024 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .bf16 = 32 ∨ (Rect.block (s := S4096x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .bf16 = 32 ∨ (Rect.block (s := S4096x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .bf16 = 32 ∨ (Rect.block (s := S4096x1024) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x128.size a ≤ S2x2048x1024.size a
  hwx3_0 : ∀ i : grid3.Coords, EltTy.bits .bf16 = 32 ∨ (Rect.block (s := S2x2048x1024) S1x256x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x128.size a ≤ S2x2048x1024.size a
  hwx3_1 : ∀ i : grid3.Coords, EltTy.bits .bf16 = 32 ∨ (Rect.block (s := S2x2048x1024) S1x2048x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x128.size a ≤ S2x2048x1024.size a
  hwx3_2 : ∀ i : grid3.Coords, EltTy.bits .bf16 = 32 ∨ (Rect.block (s := S2x2048x1024) S1x2048x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x256x128.size a ≤ S2x2048x1024.size a
  hwx3_3 : ∀ i : grid3.Coords, EltTy.bits .bf16 = 32 ∨ (Rect.block (s := S2x2048x1024) S1x256x128.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x2x256x2048.size a ≤ S2x16x2048x2048.size a
  hwx3_4 : ∀ i : grid3.Coords, EltTy.bits .f32 = 32 ∨ (Rect.block (s := S2x16x2048x2048) S1x2x256x2048.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S4096x1024.size a
  hwx4_0 : ∀ i : grid4.Coords, EltTy.bits .bf16 = 32 ∨ (Rect.block (s := S4096x1024) S1024x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S4096x1024.size a
  hwx4_3 : ∀ i : grid4.Coords, EltTy.bits .f32 = 32 ∨ (Rect.block (s := S4096x1024) S1024x1024.size (cc4_transform_3 i) (hinb4_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v4) S1x256x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S1x2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1x2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v15_0) S1x256x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v15_1) S1x2x256x2048.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v16) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v17) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v18) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v19) S1024x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2x2048x1024, .f32⟩
  | .hbm, ⟨12, _⟩ => ⟨S1x1x1024, .f32⟩
  | .hbm, ⟨13, _⟩ => ⟨S2x2048x1024, .f32⟩
  | .hbm, ⟨14, _⟩ => ⟨S2x2048x1024, .f32⟩
  | .hbm, ⟨15, _⟩ => ⟨S2x2048x16x64, .f32⟩
  | .hbm, ⟨16, _⟩ => ⟨S2x16x2048x64, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x2048x16x64, .f32⟩
  | .hbm, ⟨22, _⟩ => ⟨S2x16x2048x64, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x16x64, .f32⟩
  | .hbm, ⟨28, _⟩ => ⟨S2x16x2048x64, .f32⟩
  | .hbm, ⟨29, _⟩ => ⟨S2x16x2048x2048, .f32⟩
  | .hbm, ⟨30, _⟩ => ⟨S_, .f32⟩
  | .hbm, ⟨31, _⟩ => ⟨S_, .f32⟩
  | .hbm, ⟨32, _⟩ => ⟨S2x16x2048x2048, .f32⟩
  | .hbm, ⟨33, _⟩ => ⟨S2x16x2048x2048, .f32⟩
  | .hbm, ⟨34, _⟩ => ⟨S_, .f32⟩
  | .hbm, ⟨35, _⟩ => ⟨S2x16x2048, .f32⟩
  | .hbm, ⟨36, _⟩ => ⟨S_, .f32⟩
  | .hbm, ⟨37, _⟩ => ⟨S2x16x2048, .f32⟩
  | .hbm, ⟨38, _⟩ => ⟨S2x16x2048, .f32⟩
  | .hbm, ⟨39, _⟩ => ⟨S2x16x2048x1, .f32⟩
  | .hbm, ⟨40, _⟩ => ⟨S2x16x2048x2048, .f32⟩
  | .hbm, ⟨41, _⟩ => ⟨S2x16x2048x2048, .f32⟩
  | .hbm, ⟨42, _⟩ => ⟨S2x16x2048x2048, .f32⟩
  | .hbm, ⟨43, _⟩ => ⟨S_, .f32⟩
  | .hbm, ⟨44, _⟩ => ⟨S2x16x2048, .f32⟩
  | .hbm, ⟨45, _⟩ => ⟨S2x16x2048x1, .f32⟩
  | .hbm, ⟨46, _⟩ => ⟨S2x16x2048x2048, .f32⟩
  | .hbm, ⟨47, _⟩ => ⟨S2x16x2048x2048, .f32⟩
  | .hbm, ⟨48, _⟩ => ⟨S2x16x2048x64, .f32⟩
  | .hbm, ⟨49, _⟩ => ⟨S2x2048x16x64, .f32⟩
  | .hbm, ⟨50, _⟩ => ⟨S2x2048x1024, .f32⟩
  | .hbm, ⟨51, _⟩ => ⟨S2x2048x1024, .f32⟩
  | .hbm, ⟨52, _⟩ => ⟨S1x1x1024, .f32⟩
  | .hbm, ⟨53, _⟩ => ⟨S2x2048x1024, .f32⟩
  | .hbm, ⟨54, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibDotNT.lean ====
/-
  A matrix product against a transposed right operand, re-indexed by the contracted coordinate.

  For a dot of an [n, K] operand with an [M, K] operand into [n, M] that contracts axis 1 of both (x · wᵀ: a linear
  layer's weight stored with its output columns as rows, or queries against keys) and has no batch axes, the sum over
  the contraction index of left(row i, k) * right(column i, k) is the sum over k : Fin K of L (i 0, k) * R (i 1, k).
-/
import Idealize.ShloMosaic.PureOps.Ideal.Laws
import Idealize.ShloMosaic.Lib.ValueIdx

namespace Cert.LibDotNT

open Idealize.ShloMosaic Idealize.ShloMosaic.ValueIdx

variable {n K M : Nat}

/-- The dimension numbers of x · wᵀ: contract axis 1 with axis 1, keep axis 0 of each, no batch axes. -/
structure IsNT (d : DotDims ⟨2, ![n, K]⟩ ⟨2, ![M, K]⟩ ⟨2, ![n, M]⟩) : Prop where
  lc : d.lhsContracting = [1]
  rc : d.rhsContracting = [1]
  ln : d.lhsNonContracting = [0]
  rn : d.rhsNonContracting = [0]
  lb : d.lhsBatch = []
  rb : d.rhsBatch = []

/-- The contraction sum of x · wᵀ at output index `i` is the sum over the contracted coordinate. -/
theorem sum_contr {α : Type} [AddCommMonoid α] (d : DotDims ⟨2, ![n, K]⟩ ⟨2, ![M, K]⟩ ⟨2, ![n, M]⟩) (hd : IsNT d)
    (f : (⟨2, ![n, K]⟩ : Shape).Idx → (⟨2, ![M, K]⟩ : Shape).Idx → α) (i : (⟨2, ![n, M]⟩ : Shape).Idx) :
    ∑ q : d.contr.Idx, f (d.lhsIdx i q) (d.rhsIdx i q) = ∑ k : Fin K, f (ix2 (i 0) k) (ix2 (i 1) k) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![M, K]⟩ ⟨2, ![n, M]⟩ := ⟨[1], [1], [0], [0], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 (i 1) k := funext fun a => Fin.ext (by
    match a with
    | ⟨0, _⟩ =>
      show (d.rhsIdx i _ 0).val = (i 1).val
      unfold DotDims.rhsIdx
      rw [dif_neg (show ¬(0 : Fin (⟨2, ![M, K]⟩ : Shape).rank) ∈ d.rhsBatch from List.not_mem_nil),
        dif_pos (show (0 : Fin (⟨2, ![M, K]⟩ : Shape).rank) ∈ d.rhsNonContracting from List.mem_singleton.mpr rfl)]
      rfl
    | ⟨1, _⟩ => exact (d.rhsIdx_val_of_single rfl i _).trans hk)
  rw [el, er]
  try rfl

end Cert.LibDotNT
-- ==== Proof.KLinear.lean ====
/-
  The linear-layer kernel body at an index. One launch point multiplies a [1024, 1024] block of activations by the
  whole [1024, 1024] weight matrix, stored with its output columns as rows, and adds the bias row: entry (r, e) of
  what it stores is Σ_k x[r,k] · w[e,k] + bias[0,e]. Over the extended reals the changes of float format on the way
  in and out are the identity, and the product into a zero accumulator is the plain contraction sum.
-/
import proofs.«147473_j89876485636546_2_alg».proof.Proof.Gen.KernelIdeal.Skeleton
import proofs.«147473_j89876485636546_2_alg».proof.Proof.LibDotNT
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The projection's product contracts axis 1 of both operands. -/
theorem dot1024_nt : Cert.LibDotNT.IsNT dot_S1024x1024_S1024x1024_S1024x1024_1_1_0_0_n_n := ⟨rfl, rfl, rfl, rfl, rfl, rfl⟩

/-- x · wᵀ into a zero accumulator, plus the bias row broadcast down the rows, at (r, e). -/
theorem linear_at {φ₁ φ₂ : FTy} (a : FVec Ideal S1024x1024 φ₁) (w : FVec Ideal S1024x1024 φ₂) (bias : FVec Ideal S1x1024 .f32)
    (r e : Fin 1024) :
    addf (matmul dot_S1024x1024_S1024x1024_S1024x1024_1_1_0_0_n_n none a w (constant S1024x1024 .f32 0x00000000#32))
      (broadcastTo S1024x1024 bias broadcasts_S1x1024_S1024x1024) (ix2 r e)
    = (∑ k : Fin 1024, a (ix2 r k) * w (ix2 e k)) + bias (ix2 (0 : Fin 1) e) := by
  show FloatOps.matmul dot_S1024x1024_S1024x1024_S1024x1024_1_1_0_0_n_n none a w (constant S1024x1024 .f32 0x00000000#32) (ix2 r e)
      + broadcastTo S1024x1024 bias broadcasts_S1x1024_S1024x1024 (ix2 r e) = _
  rw [Ideal.matmul_constant_zero_apply, broadcastTo_1b_ab_apply]
  exact congrArg (· + bias (ix2 (0 : Fin 1) e))
    (Cert.LibDotNT.sum_contr dot_S1024x1024_S1024x1024_S1024x1024_1_1_0_0_n_n dot1024_nt (fun i j => a i * w j) (ix2 r e))

/-- The query projection's body at (r, e). -/
theorem k0_pay1_at (x0 : Vec Ideal S1024x1024 .f32) (x1 : Vec Ideal S1024x1024 .bf16) (x2 : Vec Ideal S1x1024 .f32) (r e : Fin 1024) :
    k0_pay1 (F := Ideal) x0 x1 x2 (ix2 r e) = (∑ k : Fin 1024, x0 (ix2 r k) * x1 (ix2 e k)) + x2 (ix2 (0 : Fin 1) e) := by
  unfold k0_pay1
  simp only [shapeCast_self]
  exact linear_at (φ₁ := .bf16) (φ₂ := .bf16) x0 x1 x2 r e

/-- The key projection's body at (r, e). -/
theorem k1_pay1_at (x0 : Vec Ideal S1024x1024 .f32) (x1 : Vec Ideal S1024x1024 .bf16) (x2 : Vec Ideal S1x1024 .f32) (r e : Fin 1024) :
    k1_pay1 (F := Ideal) x0 x1 x2 (ix2 r e) = (∑ k : Fin 1024, x0 (ix2 r k) * x1 (ix2 e k)) + x2 (ix2 (0 : Fin 1) e) := by
  unfold k1_pay1
  simp only [shapeCast_self]
  exact linear_at (φ₁ := .bf16) (φ₂ := .bf16) x0 x1 x2 r e

/-- The value projection's body at (r, e). -/
theorem k2_pay1_at (x0 : Vec Ideal S1024x1024 .f32) (x1 : Vec Ideal S1024x1024 .bf16) (x2 : Vec Ideal S1x1024 .f32) (r e : Fin 1024) :
    k2_pay1 (F := Ideal) x0 x1 x2 (ix2 r e) = (∑ k : Fin 1024, x0 (ix2 r k) * x1 (ix2 e k)) + x2 (ix2 (0 : Fin 1) e) := by
  unfold k2_pay1
  simp only [shapeCast_self]
  exact linear_at (φ₁ := .bf16) (φ₂ := .bf16) x0 x1 x2 r e

/-- The output projection's body at (r, e). -/
theorem k4_pay1_at (x0 : Vec Ideal S1024x1024 .bf16) (x1 : Vec Ideal S1024x1024 .bf16) (x2 : Vec Ideal S1x1024 .f32) (r e : Fin 1024) :
    k4_pay1 (F := Ideal) x0 x1 x2 (ix2 r e) = (∑ k : Fin 1024, x0 (ix2 r k) * x1 (ix2 e k)) + x2 (ix2 (0 : Fin 1) e) := by
  unfold k4_pay1
  simp only [shapeCast_self]
  exact linear_at (φ₁ := .bf16) (φ₂ := .bf16) x0 x1 x2 r e

end Cert.KernelIdeal.Body

end
-- ==== Proof.KLinM.lean ====
/-
  A linear layer on a [4096, 1024] matrix of rows: Y[i,e] = Σ_k X[i,k] · W[e,k] + B[0,e], and the one step every
  launch point's proof shares: a block's payload with that formula over its loaded blocks is the layer at the array
  index the block's entry sits at, once each loaded entry is identified with the array entry it was fetched from.
-/
import proofs.«147473_j89876485636546_2_alg».proof.KernelIdeal
import Idealize.ShloMosaic.Lib.ValueIdx
import Idealize.ShloMosaic.PureOps.Ideal

noncomputable section

namespace Cert.KernelIdeal.Body

open Cert.KernelIdeal Idealize.ShloMosaic Idealize.ShloMosaic.ValueIdx

/-- The linear layer on a matrix of 4096 rows. -/
def linM (X : S4096x1024.Idx → EReal) (W : S1024x1024.Idx → EReal) (B : S1x1024.Idx → EReal) : S4096x1024.Idx → EReal :=
  fun j => (∑ k : Fin 1024, X (ix2 (j 0) k) * W (ix2 (j 1) k)) + B (ix2 (0 : Fin 1) (j 1))

/-- A block entry computed by the formula over loaded blocks is the layer at the array index it sits at. -/
theorem point_lin (pay : S1024x1024.Idx → EReal) (x0 x1 : S1024x1024.Idx → EReal) (x2 : S1x1024.Idx → EReal)
    (hp : ∀ r e : Fin 1024, pay (ix2 r e) = (∑ k : Fin 1024, x0 (ix2 r k) * x1 (ix2 e k)) + x2 (ix2 (0 : Fin 1) e))
    (X : S4096x1024.Idx → EReal) (W : S1024x1024.Idx → EReal) (B : S1x1024.Idx → EReal)
    (y : S1024x1024.Idx) (i : S4096x1024.Idx)
    (h0 : ∀ k : Fin 1024, x0 (ix2 (y 0) k) = X (ix2 (i 0) k))
    (h1 : ∀ k : Fin 1024, x1 (ix2 (y 1) k) = W (ix2 (i 1) k))
    (h2 : x2 (ix2 (0 : Fin 1) (y 1)) = B (ix2 (0 : Fin 1) (i 1))) :
    pay y = linM X W B i := by
  calc pay y = pay (ix2 (y 0) (y 1)) := congrArg pay (eq_ix2 y)
    _ = (∑ k : Fin 1024, x0 (ix2 (y 0) k) * x1 (ix2 (y 1) k)) + x2 (ix2 (0 : Fin 1) (y 1)) := hp _ _
    _ = linM X W B i := by
      unfold linM
      rw [h2]
      exact congrArg (· + B (ix2 (0 : Fin 1) (i 1))) (Finset.sum_congr rfl fun k _ => by rw [h0 k, h1 k])

end Cert.KernelIdeal.Body

end
-- ==== Proof.KLaunch0.lean ====
/-
  The query-projection launch: what its output array holds when the launch ends. The grid has four points; point t reads
  rows 1024t … 1024t+1023 of the [4096, 1024] activation matrix, the whole weight matrix and the bias row, and writes
  back the same rows of the output, so the four blocks tile the output and every entry (i, e) ends at
  Σ_k X[i,k] · W[e,k] + B[0,e] of the arrays as the launch finds them.
-/
import proofs.«147473_j89876485636546_2_alg».proof.Proof.Gen.KernelIdeal.Frame
import proofs.«147473_j89876485636546_2_alg».proof.Proof.KLinear
import proofs.«147473_j89876485636546_2_alg».proof.Proof.KLinM

set_option maxRecDepth 16384

noncomputable section

namespace Cert.KernelIdeal.Launch0

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the activation and output blocks move together down the rows, the weight
    and bias blocks stay at the origin. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every row block of the output is some point's. -/
theorem idx_onto : ∀ q0 : Fin 4, ∃ t : Fin cfg0.N, win0_3.index t = ![q0.val, 0] :=
  (by decide +kernel : ∀ q0 : Fin 4, ∃ t : Fin grid0.N, win0_3.index t = ![q0.val, 0])

/-- What point t writes back is block t of the linear layer of the arrays as the launch finds them. -/
theorem flushed_eq (c : Dev nD) (t : Fin cfg0.N) :
    (dat0 (F := Ideal) V c).flushed 3 t
      = ((cfg0.win 3).blk t).view.read (Elt Ideal) (linM (V c main_v0) (V c main_v1) (V c main_v2)) := by
  show (cfg0.win 3).cut (grid0.coords t) ((dat0 (F := Ideal) V c).after 3 t) = _
  rw [after0_3]
  unfold out0_3
  rw [View.canon_unit_zero hz]
  simp only [View.ld_unit_zero (S := S1024x1024) hz, View.ld_unit_zero (S := S1x1024) hz]
  obtain ⟨e0, e1, e2, e3, e4, e5, e6⟩ := idx_facts t
  funext y
  refine point_lin _ _ _ _ (k0_pay1_at _ _ _) (V c main_v0) (V c main_v1) (V c main_v2) y (((cfg0.win 3).blk t).view.emb y) ?_ ?_ ?_
  · intro k
    show V c main_v0 (((cfg0.win 0).blk t).view.emb (ix2 (y 0) k)) = V c main_v0 (ix2 ((((cfg0.win 3).blk t).view.emb y) 0) k)
    refine congrArg (V c main_v0) (funext fun a => Fin.ext ?_)
    match a with
    | ⟨0, _⟩ => show win0_0.index t (0 : Fin 2) * 1024 + 1 * (y 0).val = win0_3.index t (0 : Fin 2) * 1024 + 1 * (y 0).val; omega
    | ⟨1, _⟩ => show win0_0.index t (1 : Fin 2) * 1024 + 1 * k.val = k.val; omega
  · intro k
    show V c main_v1 (((cfg0.win 1).blk t).view.emb (ix2 (y 1) k)) = V c main_v1 (ix2 ((((cfg0.win 3).blk t).view.emb y) 1) k)
    refine congrArg (V c main_v1) (funext fun a => Fin.ext ?_)
    match a with
    | ⟨0, _⟩ => show win0_1.index t (0 : Fin 2) * 1024 + 1 * (y 1).val = win0_3.index t (1 : Fin 2) * 1024 + 1 * (y 1).val; omega
    | ⟨1, _⟩ => show win0_1.index t (1 : Fin 2) * 1024 + 1 * k.val = k.val; omega
  · show V c main_v2 (((cfg0.win 2).blk t).view.emb (ix2 (0 : Fin 1) (y 1))) = V c main_v2 (ix2 (0 : Fin 1) ((((cfg0.win 3).blk t).view.emb y) 1))
    refine congrArg (V c main_v2) (funext fun a => Fin.ext ?_)
    match a with
    | ⟨0, _⟩ => show win0_2.index t (0 : Fin 2) * 1 + 1 * 0 = 0; omega
    | ⟨1, _⟩ => show win0_2.index t (1 : Fin 2) * 1024 + 1 * (y 1).val = win0_3.index t (1 : Fin 2) * 1024 + 1 * (y 1).val; omega

/-- An index of the output is in point t's block iff each coordinate is in the block's range on its axis. -/
theorem mem_blk (t : Fin cfg0.N) (i : S4096x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v3).slice (win0_3.rect t)).set ↔ _
  rw [View.set_slice_whole, Rect.mem_set_unit]
  exact Iff.rfl

/-- Row i lies in the block of point i / 1024: the four blocks tile the output. -/
theorem cover (i : S4096x1024.Idx) : ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The output array when the launch ends: the linear layer of the arrays as the launch finds them. -/
theorem final (c : Dev nD) :
    (dat0 (F := Ideal) V c).arrAt 3 cfg0.N = linM (V c main_v0) (V c main_v1) (V c main_v2) :=
  (dat0 (F := Ideal) V c).arrAt_eq_of_cover 3 _ (fun t _ => flushed_eq V c t) cover

end Cert.KernelIdeal.Launch0

end
-- ==== Proof.KLaunch1.lean ====
/-
  The key-projection launch: what its output array holds when the launch ends. The grid has four points; point t reads
  rows 1024t … 1024t+1023 of the [4096, 1024] activation matrix, the whole weight matrix and the bias row, and writes
  back the same rows of the output, so the four blocks tile the output and every entry (i, e) ends at
  Σ_k X[i,k] · W[e,k] + B[0,e] of the arrays as the launch finds them.
-/
import proofs.«147473_j89876485636546_2_alg».proof.Proof.Gen.KernelIdeal.Frame
import proofs.«147473_j89876485636546_2_alg».proof.Proof.KLinear
import proofs.«147473_j89876485636546_2_alg».proof.Proof.KLinM

set_option maxRecDepth 16384

noncomputable section

namespace Cert.KernelIdeal.Launch1

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the activation and output blocks move together down the rows, the weight
    and bias blocks stay at the origin. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 :=
  (by decide +kernel : ∀ t : Fin grid1.N, _)

/-- Every row block of the output is some point's. -/
theorem idx_onto : ∀ q0 : Fin 4, ∃ t : Fin cfg1.N, win1_3.index t = ![q0.val, 0] :=
  (by decide +kernel : ∀ q0 : Fin 4, ∃ t : Fin grid1.N, win1_3.index t = ![q0.val, 0])

/-- What point t writes back is block t of the linear layer of the arrays as the launch finds them. -/
theorem flushed_eq (c : Dev nD) (t : Fin cfg1.N) :
    (dat1 (F := Ideal) V c).flushed 3 t
      = ((cfg1.win 3).blk t).view.read (Elt Ideal) (linM (V c main_v5) (V c main_v6) (V c main_v7)) := by
  show (cfg1.win 3).cut (grid1.coords t) ((dat1 (F := Ideal) V c).after 3 t) = _
  rw [after1_3]
  unfold out1_3
  rw [View.canon_unit_zero hz]
  simp only [View.ld_unit_zero (S := S1024x1024) hz, View.ld_unit_zero (S := S1x1024) hz]
  obtain ⟨e0, e1, e2, e3, e4, e5, e6⟩ := idx_facts t
  funext y
  refine point_lin _ _ _ _ (k1_pay1_at _ _ _) (V c main_v5) (V c main_v6) (V c main_v7) y (((cfg1.win 3).blk t).view.emb y) ?_ ?_ ?_
  · intro k
    show V c main_v5 (((cfg1.win 0).blk t).view.emb (ix2 (y 0) k)) = V c main_v5 (ix2 ((((cfg1.win 3).blk t).view.emb y) 0) k)
    refine congrArg (V c main_v5) (funext fun a => Fin.ext ?_)
    match a with
    | ⟨0, _⟩ => show win1_0.index t (0 : Fin 2) * 1024 + 1 * (y 0).val = win1_3.index t (0 : Fin 2) * 1024 + 1 * (y 0).val; omega
    | ⟨1, _⟩ => show win1_0.index t (1 : Fin 2) * 1024 + 1 * k.val = k.val; omega
  · intro k
    show V c main_v6 (((cfg1.win 1).blk t).view.emb (ix2 (y 1) k)) = V c main_v6 (ix2 ((((cfg1.win 3).blk t).view.emb y) 1) k)
    refine congrArg (V c main_v6) (funext fun a => Fin.ext ?_)
    match a with
    | ⟨0, _⟩ => show win1_1.index t (0 : Fin 2) * 1024 + 1 * (y 1).val = win1_3.index t (1 : Fin 2) * 1024 + 1 * (y 1).val; omega
    | ⟨1, _⟩ => show win1_1.index t (1 : Fin 2) * 1024 + 1 * k.val = k.val; omega
  · show V c main_v7 (((cfg1.win 2).blk t).view.emb (ix2 (0 : Fin 1) (y 1))) = V c main_v7 (ix2 (0 : Fin 1) ((((cfg1.win 3).blk t).view.emb y) 1))
    refine congrArg (V c main_v7) (funext fun a => Fin.ext ?_)
    match a with
    | ⟨0, _⟩ => show win1_2.index t (0 : Fin 2) * 1 + 1 * 0 = 0; omega
    | ⟨1, _⟩ => show win1_2.index t (1 : Fin 2) * 1024 + 1 * (y 1).val = win1_3.index t (1 : Fin 2) * 1024 + 1 * (y 1).val; omega

/-- An index of the output is in point t's block iff each coordinate is in the block's range on its axis. -/
theorem mem_blk (t : Fin cfg1.N) (i : S4096x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v8).slice (win1_3.rect t)).set ↔ _
  rw [View.set_slice_whole, Rect.mem_set_unit]
  exact Iff.rfl

/-- Row i lies in the block of point i / 1024: the four blocks tile the output. -/
theorem cover (i : S4096x1024.Idx) : ∃ t : Fin cfg1.N, (cfg1.win 3).flush t = true ∧ i ∈ ((cfg1.win 3).blk t).view.set := by
  have hi0 : (i 0).val < 4096 := (i 0).isLt
  have hi1 : (i 1).val < 1024 := (i 1).isLt
  obtain ⟨t, ht⟩ := idx_onto ⟨(i 0).val / 1024, by omega⟩
  have q0 : win1_3.index t (0 : Fin 2) = (i 0).val / 1024 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- The output array when the launch ends: the linear layer of the arrays as the launch finds them. -/
theorem final (c : Dev nD) :
    (dat1 (F := Ideal) V c).arrAt 3 cfg1.N = linM (V c main_v5) (V c main_v6) (V c main_v7) :=
  (dat1 (F := Ideal) V c).arrAt_eq_of_cover 3 _ (fun t _ => flushed_eq V c t) cover

end Cert.KernelIdeal.Launch1

end
-- ==== Proof.KLaunch2.lean ====
/-
  The value-projection launch: what its output array holds when the launch ends. The grid has four points; point t reads
  rows 1024t … 1024t+1023 of the [4096, 1024] activation matrix, the whole weight matrix and the bias row, and writes
  back the same rows of the output, so the four blocks tile the output and every entry (i, e) ends at
  Σ_k X[i,k] · W[e,k] + B[0,e] of the arrays as the launch finds them.
-/
import proofs.«147473_j89876485636546_2_alg».proof.Proof.Gen.KernelIdeal.Frame
import proofs.«147473_j89876485636546_2_alg».proof.Proof.KLinear
import proofs.«147473_j89876485636546_2_alg».proof.Proof.KLinM

set_option maxRecDepth 16384

noncomputable section

namespace Cert.KernelIdeal.Launch2

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the activation and output blocks move together down the rows, the weight
    and bias blocks stay at the origin. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 :=
  (by decide +kernel : ∀ t : Fin grid2.N, _)

/-- Every row block of the output is some point's. -/
theorem idx_onto : ∀ q0 : Fin 4, ∃ t : Fin cfg2.N, win2_3.index t = ![q0.val, 0] :=
  (by decide +kernel : ∀ q0 : Fin 4, ∃ t : Fin grid2.N, win2_3.index t = ![q0.val, 0])

/-- What point t writes back is block t of the linear layer of the arrays as the launch finds them. -/
theorem flushed_eq (c : Dev nD) (t : Fin cfg2.N) :
    (dat2 (F := Ideal) V c).flushed 3 t
      = ((cfg2.win 3).blk t).view.read (Elt Ideal) (linM (V c main_v10) (V c main_v11) (V c main_v12)) := by
  show (cfg2.win 3).cut (grid2.coords t) ((dat2 (F := Ideal) V c).after 3 t) = _
  rw [after2_3]
  unfold out2_3
  rw [View.canon_unit_zero hz]
  simp only [View.ld_unit_zero (S := S1024x1024) hz, View.ld_unit_zero (S := S1x1024) hz]
  obtain ⟨e0, e1, e2, e3, e4, e5, e6⟩ := idx_facts t
  funext y
  refine point_lin _ _ _ _ (k2_pay1_at _ _ _) (V c main_v10) (V c main_v11) (V c main_v12) y (((cfg2.win 3).blk t).view.emb y) ?_ ?_ ?_
  · intro k
    show V c main_v10 (((cfg2.win 0).blk t).view.emb (ix2 (y 0) k)) = V c main_v10 (ix2 ((((cfg2.win 3).blk t).view.emb y) 0) k)
    refine congrArg (V c main_v10) (funext fun a => Fin.ext ?_)
    match a with
    | ⟨0, _⟩ => show win2_0.index t (0 : Fin 2) * 1024 + 1 * (y 0).val = win2_3.index t (0 : Fin 2) * 1024 + 1 * (y 0).val; omega
    | ⟨1, _⟩ => show win2_0.index t (1 : Fin 2) * 1024 + 1 * k.val = k.val; omega
  · intro k
    show V c main_v11 (((cfg2.win 1).blk t).view.emb (ix2 (y 1) k)) = V c main_v11 (ix2 ((((cfg2.win 3).blk t).view.emb y) 1) k)
    refine congrArg (V c main_v11) (funext fun a => Fin.ext ?_)
    match a with
    | ⟨0, _⟩ => show win2_1.index t (0 : Fin 2) * 1024 + 1 * (y 1).val = win2_3.index t (1 : Fin 2) * 1024 + 1 * (y 1).val; omega
    | ⟨1, _⟩ => show win2_1.index t (1 : Fin 2) * 1024 + 1 * k.val = k.val; omega
  · show V c main_v12 (((cfg2.win 2).blk t).view.emb (ix2 (0 : Fin 1) (y 1))) = V c main_v12 (ix2 (0 : Fin 1) ((((cfg2.win 3).blk t).view.emb y) 1))
    refine congrArg (V c main_v12) (funext fun a => Fin.ext ?_)
    match a with
    | ⟨0, _⟩ => show win2_2.index t (0 : Fin 2) * 1 + 1 * 0 = 0; omega
    | ⟨1, _⟩ => show win2_2.index t (1 : Fin 2) * 1024 + 1 * (y 1).val = win2_3.index t (1 : Fin 2) * 1024 + 1 * (y 1).val; omega

/-- An index of the output is in point t's block iff each coordinate is in the block's range on its axis. -/
theorem mem_blk (t : Fin cfg2.N) (i : S4096x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v13).slice (win2_3.rect t)).set ↔ _
  rw [View.set_slice_whole, Rect.mem_set_unit]
  exact Iff.rfl

/-- Row i lies in the block of point i / 1024: the four blocks tile the output. -/
theorem cover (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- The output array when the launch ends: the linear layer of the arrays as the launch finds them. -/
theorem final (c : Dev nD) :
    (dat2 (F := Ideal) V c).arrAt 3 cfg2.N = linM (V c main_v10) (V c main_v11) (V c main_v12) :=
  (dat2 (F := Ideal) V c).arrAt_eq_of_cover 3 _ (fun t _ => flushed_eq V c t) cover

end Cert.KernelIdeal.Launch2

end
-- ==== Proof.Attention.lean ====
/-
  Multi-head attention as one function of its eleven argument arrays, index by index, over the extended reals.

  With B = 2 batches, S = 2048 positions, D = 1024 model columns, H = 16 heads of width 64 (column e belongs to
  head e / 64), a projection is y[b,s,e] = Σ_d x[b,s,d] · w[e,d] + bias[e]; the score of query position q against
  key position k in head h is s[b,h,q,k] = (Σ_{d<64} Q[b,q,64h+d] · K[b,k,64h+d]) · (1/8); the attention weights
  are the softmax of a score row over k, taken as exp(s − max s) / Σ exp(s − max s); the context is
  ctx[b,q,e] = Σ_k attn[b,e/64,q,k] · V[b,k,e]; the result is the projection of the context.
-/
import Idealize.ShloMosaic.PureOps.Ideal
import Idealize.ShloMosaic.PureOps.Ideal.Laws
import Idealize.ShloMosaic.Lib.ValueIdx

noncomputable section

namespace Cert.MHA

open Idealize.ShloMosaic Idealize.ShloMosaic.ValueIdx

/-- [2, 2048, 1024]: an activation array. -/
abbrev T3 : Shape := ⟨3, ![2, 2048, 1024]⟩
/-- [1024, 1024]: a weight matrix, rows the output columns. -/
abbrev M2 : Shape := ⟨2, ![1024, 1024]⟩
/-- [1024]: a bias vector. -/
abbrev B1 : Shape := ⟨1, ![1024]⟩
/-- [2, 16, 2048, 2048]: the attention weights. -/
abbrev A4 : Shape := ⟨4, ![2, 16, 2048, 2048]⟩

/-- An activation array by coordinates. -/
abbrev Act := Fin 2 → Fin 2048 → Fin 1024 → EReal

/-- The scale 1/8 = 1/√64, as the f32 word the kernel multiplies by. -/
abbrev eighth : EReal := Ideal.ofBits .f32 0x3E000000#32
/-- −∞, as the f32 word both maxima start from. -/
abbrev negInf : EReal := Ideal.ofBits .f32 0xFF800000#32

/-- A linear layer: y[b,s,e] = Σ_d x[b,s,d] · w[e,d] + bias[e]. -/
def proj (x : Act) (w : M2.Idx → EReal) (bias : B1.Idx → EReal) : Act :=
  fun b s e => (∑ d : Fin 1024, x b s d * w (ix2 e d)) + bias (ix1 e)

/-- An argument array read by coordinates. -/
def act (x : T3.Idx → EReal) : Act := fun b s e => x (ix3 b s e)

/-- Column d of head h among the 1024 model columns. -/
def hcol (h : Fin 16) (d : Fin 64) : Fin 1024 := ⟨h.val * 64 + d.val, by have := h.isLt; have := d.isLt; omega⟩

/-- The head a model column belongs to. -/
def headOf (e : Fin 1024) : Fin 16 := ⟨e.val / 64, by have := e.isLt; omega⟩

/-- The scaled score of query position q against key position k in head h of batch b. -/
def score (Q K : Act) (b : Fin 2) (h : Fin 16) (q k : Fin 2048) : EReal :=
  (∑ d : Fin 64, Q b q (hcol h d) * K b k (hcol h d)) * eighth

/-- The maximum of a row of 2048 scores, from −∞. -/
def rowMax (s : Fin 2048 → EReal) : EReal := (Finset.univ : Finset (Fin 2048)).fold max negInf s

/-- The softmax of a row, shifted by its maximum. -/
def softmax (s : Fin 2048 → EReal) (k : Fin 2048) : EReal :=
  Ideal.div (Ideal.exp (s k - rowMax s)) (∑ k' : Fin 2048, Ideal.exp (s k' - rowMax s))

/-- The attention weights. -/
def attn (Q K : Act) (b : Fin 2) (h : Fin 16) (q k : Fin 2048) : EReal := softmax (score Q K b h q) k

/-- The context: each head's weights applied to its 64 value columns. -/
def ctx (Q K V : Act) : Act := fun b q e => ∑ k : Fin 2048, attn Q K b (headOf e) q k * V b k e

/-- The attention-weights result as an array. -/
def attnArr (q k : T3.Idx → EReal) (wq : M2.Idx → EReal) (bq : B1.Idx → EReal) (wk : M2.Idx → EReal) (bk : B1.Idx → EReal) :
    A4.Idx → EReal :=
  fun i => attn (proj (act q) wq bq) (proj (act k) wk bk) (i 0) (i 1) (i 2) (i 3)

/-- The output result as an array. -/
def outArr (q k v : T3.Idx → EReal) (wq : M2.Idx → EReal) (bq : B1.Idx → EReal) (wk : M2.Idx → EReal) (bk : B1.Idx → EReal)
    (wv : M2.Idx → EReal) (bv : B1.Idx → EReal) (wo : M2.Idx → EReal) (bo : B1.Idx → EReal) : T3.Idx → EReal :=
  fun i => proj (ctx (proj (act q) wq bq) (proj (act k) wk bk) (proj (act v) wv bv)) wo bo (i 0) (i 1) (i 2)

end Cert.MHA

end
-- ==== Proof.KAttnSpec.lean ====
/-
  One launch point of the attention kernel on its loaded blocks. The point holds a [1, 256, 128] block of queries (256
  query positions, two heads side by side, 64 lanes each), and [1, 2048, 128] blocks of keys and of values (all 2048
  positions, the same two heads). For head hi ∈ {0, 1} of the pair: the scaled score of query row r against key row k
  is (Σ_{d<64} q[0,r,64hi+d] · k[0,k,64hi+d]) · (1/8); the weights are the softmax of a score row; the context entry
  at lane d of the head is Σ_k weights[r,k] · v[0,k,64hi+d].
-/
import proofs.«147473_j89876485636546_2_alg».proof.KernelIdeal
import proofs.«147473_j89876485636546_2_alg».proof.Proof.Attention
import Idealize.ShloMosaic.Lib.ValueIdx

noncomputable section

namespace Cert.KernelIdeal.Body

open Cert.KernelIdeal Idealize.ShloMosaic Idealize.ShloMosaic.ValueIdx

/-- Lane d of head hi among the 128 lanes of a head pair. -/
def lane (hi : Fin 2) (d : Fin 64) : Fin 128 := ⟨hi.val * 64 + d.val, by have := hi.isLt; have := d.isLt; omega⟩

/-- The scaled score of query row r against key row k for head hi of the pair. -/
def blkScore (x0 : S1x256x128.Idx → EReal) (x1 : S1x2048x128.Idx → EReal) (hi : Fin 2) (r : Fin 256) (k : Fin 2048) : EReal :=
  (∑ d : Fin 64, x0 (ix3 (0 : Fin 1) r (lane hi d)) * x1 (ix3 (0 : Fin 1) k (lane hi d))) * Cert.MHA.eighth

/-- The attention weights of query row r for head hi of the pair. -/
def blkAttn (x0 : S1x256x128.Idx → EReal) (x1 : S1x2048x128.Idx → EReal) (hi : Fin 2) (r : Fin 256) (k : Fin 2048) : EReal :=
  Cert.MHA.softmax (blkScore x0 x1 hi r) k

/-- The context of query row r at lane d of head hi of the pair. -/
def blkCtx (x0 : S1x256x128.Idx → EReal) (x1 x2 : S1x2048x128.Idx → EReal) (hi : Fin 2) (r : Fin 256) (d : Fin 64) : EReal :=
  ∑ k : Fin 2048, blkAttn x0 x1 hi r k * x2 (ix3 (0 : Fin 1) k (lane hi d))

end Cert.KernelIdeal.Body

end
-- ==== Proof.KAttnPoint.lean ====
/-
  The attention launch, block level. What a launch point leaves in its two output blocks is one function of the three
  blocks it loaded: the [1, 256, 128] context block holds, at (0, r, e), the context of query row r at lane e % 64 of
  head e / 64 of the pair; the [1, 2, 256, 2048] weights block holds, at (0, hi, r, k), the attention weight of query
  row r on key row k for head hi. Each block is stored as two pieces, one per head of the pair, that tile it.
  And a block entry is the attention of the whole arrays at the array position the entry sits at, once every loaded
  entry the formula reads is identified with the array entry it was fetched from.
-/
import proofs.«147473_j89876485636546_2_alg».proof.Proof.Gen.KernelIdeal.Frame
import proofs.«147473_j89876485636546_2_alg».proof.Proof.KAttnSpec
import Idealize.ShloMosaic.Lib.Pipeline.Value

set_option maxRecDepth 16384

noncomputable section

namespace Cert.KernelIdeal.Body

open Cert.KernelIdeal Cert.KernelIdeal.Gen Idealize.ShloMosaic Idealize.ShloMosaic.ValueIdx

/-- The body's four stored pieces, each read at an index of its piece: the two heads' attention weights and contexts. -/
structure PieceFacts : Prop where
  a0 : ∀ (v0 : Vec Ideal S1x256x128 .bf16) (v2 : Vec Ideal S1x2048x128 .bf16) (r : Fin 256) (k : Fin 2048),
    k3_pay8 (F := Ideal) v0 v2 (ix4 (0 : Fin 1) (0 : Fin 1) r k) = blkAttn v0 v2 0 r k
  a1 : ∀ (v0 : Vec Ideal S1x256x128 .bf16) (v2 : Vec Ideal S1x2048x128 .bf16) (r : Fin 256) (k : Fin 2048),
    k3_pay2 (F := Ideal) (k3_pay10 v0) (k3_pay11 v2) (constant (F := Ideal) S256x2048 .f32 0x00000000#32) (ix4 (0 : Fin 1) (0 : Fin 1) r k)
      = blkAttn v0 v2 1 r k
  c0 : ∀ (v0 : Vec Ideal S1x256x128 .bf16) (v2 v4 : Vec Ideal S1x2048x128 .bf16) (r : Fin 256) (d : Fin 64),
    k3_pay9 (F := Ideal) v0 v2 v4 (ix3 (0 : Fin 1) r d) = blkCtx v0 v2 v4 0 r d
  c1 : ∀ (v0 : Vec Ideal S1x256x128 .bf16) (v2 v4 : Vec Ideal S1x2048x128 .bf16) (r : Fin 256) (d : Fin 64),
    k3_pay3 (F := Ideal) (k3_pay10 v0) (k3_pay11 v2) (k3_pay12 v4) (constant (F := Ideal) S256x2048 .f32 0x00000000#32) (ix3 (0 : Fin 1) r d)
      = blkCtx v0 v2 v4 1 r d

/-- The context block as one function of the loaded blocks. -/
def ctxBlk (x0 : S1x256x128.Idx → EReal) (x1 x2 : S1x2048x128.Idx → EReal) : S1x256x128.Idx → EReal :=
  fun y => blkCtx x0 x1 x2 ⟨(y 2).val / 64, by have h : (y 2).val < 128 := (y 2).isLt; omega⟩ ⟨(y 1).val, (y 1).isLt⟩
    ⟨(y 2).val % 64, Nat.mod_lt _ (by decide)⟩

/-- The weights block as one function of the loaded blocks. -/
def attnBlk (x0 : S1x256x128.Idx → EReal) (x1 : S1x2048x128.Idx → EReal) : S1x2x256x2048.Idx → EReal :=
  fun y => blkAttn x0 x1 ⟨(y 1).val, (y 1).isLt⟩ ⟨(y 2).val, (y 2).isLt⟩ ⟨(y 3).val, (y 3).isLt⟩

theorem blkCtx_congr (x0 : S1x256x128.Idx → EReal) (x1 x2 : S1x2048x128.Idx → EReal) {hi hi' : Fin 2} {r r' : Fin 256} {d d' : Fin 64}
    (h1 : hi.val = hi'.val) (h2 : r.val = r'.val) (h3 : d.val = d'.val) : blkCtx x0 x1 x2 hi r d = blkCtx x0 x1 x2 hi' r' d' := by
  obtain rfl := Fin.ext h1; obtain rfl := Fin.ext h2; obtain rfl := Fin.ext h3; rfl

theorem blkAttn_congr (x0 : S1x256x128.Idx → EReal) (x1 : S1x2048x128.Idx → EReal) {hi hi' : Fin 2} {r r' : Fin 256} {k k' : Fin 2048}
    (h1 : hi.val = hi'.val) (h2 : r.val = r'.val) (h3 : k.val = k'.val) : blkAttn x0 x1 hi r k = blkAttn x0 x1 hi' r' k' := by
  obtain rfl := Fin.ext h1; obtain rfl := Fin.ext h2; obtain rfl := Fin.ext h3; rfl

theorem hz3 : (![0, 0, 0] : Fin 3 → Nat) = fun _ => 0 := funext fun a => by fin_cases a <;> rfl

/-- The two context pieces (lanes 64 … 127 stored last, lanes 0 … 63 first) tile the block and are its function. -/
theorem out3_3_eq (H : PieceFacts) (x0 : Vec Ideal S1x256x128 .bf16) (x1 x2 : Vec Ideal S1x2048x128 .bf16) :
    out3_3 (F := Ideal) x0 x1 x2 = ctxBlk x0 x1 x2 := by
  funext y
  unfold out3_3
  simp only [View.ld_unit_zero (S := S1x256x128) hz3, View.ld_unit_zero (S := S1x2048x128) hz3]
  refine View.canon_apply_of_pieces (Val := Elt Ideal) (ctxBlk x0 x1 x2) _ ?_ y (cover3_3 _ _ y)
  intro p hp x
  rcases List.mem_cons.mp hp with rfl | hp
  · obtain ⟨u, r, d, rfl⟩ : ∃ (u : Fin 1) (r : Fin 256) (d : Fin 64), x = ix3 u r d := ⟨x 0, x 1, x 2, eq_ix3 (n0 := 1) (n1 := 256) (n2 := 64) x⟩
    obtain rfl : u = 0 := Subsingleton.elim _ _
    refine (H.c1 x0 x1 x2 r d).trans ?_
    refine blkCtx_congr x0 x1 x2 ?_ ?_ ?_
    · show 1 = (64 + 1 * d.val) / 64
      have := d.isLt; omega
    · show r.val = 0 + 1 * r.val
      omega
    · show d.val = (64 + 1 * d.val) % 64
      have := d.isLt; omega
  · obtain rfl := List.mem_singleton.mp hp
    obtain ⟨u, r, d, rfl⟩ : ∃ (u : Fin 1) (r : Fin 256) (d : Fin 64), x = ix3 u r d := ⟨x 0, x 1, x 2, eq_ix3 (n0 := 1) (n1 := 256) (n2 := 64) x⟩
    obtain rfl : u = 0 := Subsingleton.elim _ _
    refine (H.c0 x0 x1 x2 r d).trans ?_
    refine blkCtx_congr x0 x1 x2 ?_ ?_ ?_
    · show 0 = (0 + 1 * d.val) / 64
      have := d.isLt; omega
    · show r.val = 0 + 1 * r.val
      omega
    · show d.val = (0 + 1 * d.val) % 64
      have := d.isLt; omega

theorem hz4 : (![0, 0, 0, 0] : Fin 4 → Nat) = fun _ => 0 := funext fun a => by fin_cases a <;> rfl

/-- The two weights pieces (head 1 of the pair stored last, head 0 first) tile the block and are its function. -/
theorem out3_4_eq (H : PieceFacts) (x0 : Vec Ideal S1x256x128 .bf16) (x1 x2 : Vec Ideal S1x2048x128 .bf16) :
    out3_4 (F := Ideal) x0 x1 x2 = attnBlk x0 x1 := by
  funext y
  unfold out3_4
  simp only [View.ld_unit_zero (S := S1x256x128) hz3, View.ld_unit_zero (S := S1x2048x128) hz3]
  refine View.canon_apply_of_pieces (Val := Elt Ideal) (attnBlk x0 x1) _ ?_ y (cover3_4 _ _ y)
  intro p hp x
  rcases List.mem_cons.mp hp with rfl | hp
  · obtain ⟨u, u', r, k, rfl⟩ : ∃ (u u' : Fin 1) (r : Fin 256) (k : Fin 2048), x = ix4 u u' r k :=
      ⟨x 0, x 1, x 2, x 3, eq_ix4 (n0 := 1) (n1 := 1) (n2 := 256) (n3 := 2048) x⟩
    obtain rfl : u = 0 := Subsingleton.elim _ _
    obtain rfl : u' = 0 := Subsingleton.elim _ _
    refine (H.a1 x0 x1 r k).trans ?_
    refine blkAttn_congr x0 x1 ?_ ?_ ?_
    · show 1 = 1 + 1 * 0
      omega
    · show r.val = 0 + 1 * r.val
      omega
    · show k.val = 0 + 1 * k.val
      omega
  · obtain rfl := List.mem_singleton.mp hp
    obtain ⟨u, u', r, k, rfl⟩ : ∃ (u u' : Fin 1) (r : Fin 256) (k : Fin 2048), x = ix4 u u' r k :=
      ⟨x 0, x 1, x 2, x 3, eq_ix4 (n0 := 1) (n1 := 1) (n2 := 256) (n3 := 2048) x⟩
    obtain rfl : u = 0 := Subsingleton.elim _ _
    obtain rfl : u' = 0 := Subsingleton.elim _ _
    refine (H.a0 x0 x1 r k).trans ?_
    refine blkAttn_congr x0 x1 ?_ ?_ ?_
    · show 0 = 0 + 1 * 0
      omega
    · show r.val = 0 + 1 * r.val
      omega
    · show k.val = 0 + 1 * k.val
      omega

/-! ## A block entry is the attention of the whole arrays -/

open Cert.MHA in
/-- The weights of one query row for one head: the block's, when the 64 query lanes and every key row's 64 lanes are
    the arrays' entries of batch b, head h. -/
theorem attn_point (x0 : S1x256x128.Idx → EReal) (x1 : S1x2048x128.Idx → EReal) (Q K : T3.Idx → EReal)
    (hi : Fin 2) (r : Fin 256) (b : Fin 2) (h : Fin 16) (q : Fin 2048)
    (hQ : ∀ d : Fin 64, x0 (ix3 (0 : Fin 1) r (lane hi d)) = Q (ix3 b q (hcol h d)))
    (hK : ∀ (k : Fin 2048) (d : Fin 64), x1 (ix3 (0 : Fin 1) k (lane hi d)) = K (ix3 b k (hcol h d)))
    (k k' : Fin 2048) (hk : k.val = k'.val) : blkAttn x0 x1 hi r k = attn (act Q) (act K) b h q k' := by
  obtain rfl := Fin.ext hk
  have hs : blkScore x0 x1 hi r = score (act Q) (act K) b h q := funext fun k' => by
    unfold blkScore score act
    exact congrArg (· * eighth) (Finset.sum_congr rfl fun d _ => by rw [hQ d, hK k' d])
  unfold blkAttn attn
  rw [hs]

open Cert.MHA in
/-- The context of one query row at one column: the block's, when in addition every value row's entry at the lane is
    the value array's entry at column e of batch b, and e is a column of head h. -/
theorem ctx_point (x0 : S1x256x128.Idx → EReal) (x1 x2 : S1x2048x128.Idx → EReal) (Q K Vv : T3.Idx → EReal)
    (hi : Fin 2) (r : Fin 256) (dd : Fin 64) (b : Fin 2) (h : Fin 16) (q : Fin 2048) (e : Fin 1024)
    (hh : headOf e = h)
    (hQ : ∀ d : Fin 64, x0 (ix3 (0 : Fin 1) r (lane hi d)) = Q (ix3 b q (hcol h d)))
    (hK : ∀ (k : Fin 2048) (d : Fin 64), x1 (ix3 (0 : Fin 1) k (lane hi d)) = K (ix3 b k (hcol h d)))
    (hV : ∀ k : Fin 2048, x2 (ix3 (0 : Fin 1) k (lane hi dd)) = Vv (ix3 b k e)) :
    blkCtx x0 x1 x2 hi r dd = ctx (act Q) (act K) (act Vv) b q e := by
  unfold blkCtx ctx
  rw [hh]
  refine Finset.sum_congr rfl fun k _ => ?_
  rw [attn_point x0 x1 Q K hi r b h q hQ hK k k rfl, hV k]
  rfl

end Cert.KernelIdeal.Body

end
-- ==== Proof.KLaunch3.lean ====
/-
  The attention launch: what its two output arrays hold when the launch ends. The grid is (batch b, head pair p,
  query block j), 2 × 8 × 8 points. Point (b, p, j) loads query rows 256j … 256j+255 at columns 128p … 128p+127 of batch
  b, and all 2048 key rows and value rows at the same columns; it writes back the same rows and columns of the context
  array, and rows 256j … 256j+255 (all 2048 key columns) of heads 2p and 2p+1 of the weights array. The context blocks
  tile [2, 2048, 1024] and the weights blocks tile [2, 16, 2048, 2048], so both arrays end at the attention of the
  three projected arrays as the launch finds them.
-/
import proofs.«147473_j89876485636546_2_alg».proof.Proof.Gen.KernelIdeal.Frame
import proofs.«147473_j89876485636546_2_alg».proof.Proof.KAttnPoint

set_option maxRecDepth 16384

noncomputable section

namespace Cert.KernelIdeal.Launch3

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

/-- The context array of three projected arrays. -/
def ctxA (Q K Vv : S2x2048x1024.Idx → EReal) : S2x2048x1024.Idx → EReal :=
  fun i => Cert.MHA.ctx (Cert.MHA.act Q) (Cert.MHA.act K) (Cert.MHA.act Vv) ⟨(i 0).val, (i 0).isLt⟩ ⟨(i 1).val, (i 1).isLt⟩ ⟨(i 2).val, (i 2).isLt⟩

/-- The attention-weights array of two projected arrays. -/
def attnA (Q K : S2x2048x1024.Idx → EReal) : S2x16x2048x2048.Idx → EReal :=
  fun i => Cert.MHA.attn (Cert.MHA.act Q) (Cert.MHA.act K) ⟨(i 0).val, (i 0).isLt⟩ ⟨(i 1).val, (i 1).isLt⟩ ⟨(i 2).val, (i 2).isLt⟩ ⟨(i 3).val, (i 3).isLt⟩

variable (V : (c : Dev nD) → (b : Ref sig .tc) → Buf (Elt Ideal) ((c : Thread nD τ).loc b))

/-- The printed index maps over the grid: the query and context blocks sit at (b, j, p), the key and value blocks at
    (b, 0, p), the weights block at (b, p, j, 0). -/
theorem idx_facts : ∀ t : Fin cfg3.N,
    win3_0.index t (0 : Fin 3) = win3_3.index t (0 : Fin 3) ∧ win3_0.index t (1 : Fin 3) = win3_3.index t (1 : Fin 3)
    ∧ win3_0.index t (2 : Fin 3) = win3_3.index t (2 : Fin 3)
    ∧ win3_1.index t (0 : Fin 3) = win3_3.index t (0 : Fin 3) ∧ win3_1.index t (1 : Fin 3) = 0
    ∧ win3_1.index t (2 : Fin 3) = win3_3.index t (2 : Fin 3)
    ∧ win3_2.index t (0 : Fin 3) = win3_3.index t (0 : Fin 3) ∧ win3_2.index t (1 : Fin 3) = 0
    ∧ win3_2.index t (2 : Fin 3) = win3_3.index t (2 : Fin 3)
    ∧ win3_4.index t (0 : Fin 4) = win3_3.index t (0 : Fin 3) ∧ win3_4.index t (1 : Fin 4) = win3_3.index t (2 : Fin 3)
    ∧ win3_4.index t (2 : Fin 4) = win3_3.index t (1 : Fin 3) ∧ win3_4.index t (3 : Fin 4) = 0
    ∧ win3_3.index t (0 : Fin 3) ≤ 1 ∧ win3_3.index t (1 : Fin 3) ≤ 7 ∧ win3_3.index t (2 : Fin 3) ≤ 7 :=
  (by decide +kernel : ∀ t : Fin grid3.N, _)

/-- Every block position of the context array is some point's. -/
theorem idx_onto : ∀ (q0 : Fin 2) (q1 : Fin 8) (q2 : Fin 8), ∃ t : Fin cfg3.N, win3_3.index t = ![q0.val, q1.val, q2.val] :=
  (by decide +kernel : ∀ (q0 : Fin 2) (q1 : Fin 8) (q2 : Fin 8), ∃ t : Fin grid3.N, win3_3.index t = ![q0.val, q1.val, q2.val])

/-- What point t writes back to the context array is block t of the context of the arrays as the launch finds them. -/
theorem flushed_ctx (H : PieceFacts) (c : Dev nD) (t : Fin cfg3.N) :
    (dat3 (F := Ideal) V c).flushed 3 t
      = ((cfg3.win 3).blk t).view.read (Elt Ideal) (ctxA (V c main_v4) (V c main_v9) (V c main_v14)) := by
  show (cfg3.win 3).cut (grid3.coords t) ((dat3 (F := Ideal) V c).after 3 t) = _
  rw [after3_3, out3_3_eq H]
  obtain ⟨e00, e01, e02, e10, e11, e12, e20, e21, e22, e40, e41, e42, e43, b0, b1, b2⟩ := idx_facts t
  funext y
  have hy0 : (y 0).val < 1 := (y 0).isLt
  have hy1 : (y 1).val < 256 := (y 1).isLt
  have hy2 : (y 2).val < 128 := (y 2).isLt
  refine ctx_point (iblk3 V c 0 t) (iblk3 V c 1 t) (iblk3 V c 2 t) (V c main_v4) (V c main_v9) (V c main_v14) _ _ _ _
    ⟨win3_3.index t (2 : Fin 3) * 2 + (y 2).val / 64, by omega⟩ _ _ ?_ ?_ ?_ ?_
  · refine Fin.ext ?_
    show (win3_3.index t (2 : Fin 3) * 128 + 1 * (y 2).val) / 64 = win3_3.index t (2 : Fin 3) * 2 + (y 2).val / 64
    omega
  · intro d
    have hd : d.val < 64 := d.isLt
    show V c main_v4 (((cfg3.win 0).blk t).view.emb (ix3 (0 : Fin 1) ⟨(y 1).val, (y 1).isLt⟩ (lane ⟨(y 2).val / 64, by omega⟩ d))) = V c main_v4 _
    refine congrArg (V c main_v4) (funext fun a => Fin.ext ?_)
    match a with
    | ⟨0, _⟩ => show win3_0.index t (0 : Fin 3) * 1 + 1 * 0 = win3_3.index t (0 : Fin 3) * 1 + 1 * (y 0).val; omega
    | ⟨1, _⟩ => show win3_0.index t (1 : Fin 3) * 256 + 1 * (y 1).val = win3_3.index t (1 : Fin 3) * 256 + 1 * (y 1).val; omega
    | ⟨2, _⟩ => show win3_0.index t (2 : Fin 3) * 128 + 1 * ((y 2).val / 64 * 64 + d.val) = (win3_3.index t (2 : Fin 3) * 2 + (y 2).val / 64) * 64 + d.val; omega
  · intro k d
    have hd : d.val < 64 := d.isLt
    show V c main_v9 (((cfg3.win 1).blk t).view.emb (ix3 (0 : Fin 1) k (lane ⟨(y 2).val / 64, by omega⟩ d))) = V c main_v9 _
    refine congrArg (V c main_v9) (funext fun a => Fin.ext ?_)
    match a with
    | ⟨0, _⟩ => show win3_1.index t (0 : Fin 3) * 1 + 1 * 0 = win3_3.index t (0 : Fin 3) * 1 + 1 * (y 0).val; omega
    | ⟨1, _⟩ => show win3_1.index t (1 : Fin 3) * 2048 + 1 * k.val = k.val; omega
    | ⟨2, _⟩ => show win3_1.index t (2 : Fin 3) * 128 + 1 * ((y 2).val / 64 * 64 + d.val) = (win3_3.index t (2 : Fin 3) * 2 + (y 2).val / 64) * 64 + d.val; omega
  · intro k
    show V c main_v14 (((cfg3.win 2).blk t).view.emb (ix3 (0 : Fin 1) k (lane ⟨(y 2).val / 64, by omega⟩ ⟨(y 2).val % 64, Nat.mod_lt _ (by decide)⟩))) = V c main_v14 _
    refine congrArg (V c main_v14) (funext fun a => Fin.ext ?_)
    match a with
    | ⟨0, _⟩ => show win3_2.index t (0 : Fin 3) * 1 + 1 * 0 = win3_3.index t (0 : Fin 3) * 1 + 1 * (y 0).val; omega
    | ⟨1, _⟩ => show win3_2.index t (1 : Fin 3) * 2048 + 1 * k.val = k.val; omega
    | ⟨2, _⟩ => show win3_2.index t (2 : Fin 3) * 128 + 1 * ((y 2).val / 64 * 64 + (y 2).val % 64) = win3_3.index t (2 : Fin 3) * 128 + 1 * (y 2).val; omega

/-- What point t writes back to the weights array is block t of the attention weights of the arrays as the launch finds them. -/
theorem flushed_attn (H : PieceFacts) (c : Dev nD) (t : Fin cfg3.N) :
    (dat3 (F := Ideal) V c).flushed 4 t
      = ((cfg3.win 4).blk t).view.read (Elt Ideal) (attnA (V c main_v4) (V c main_v9)) := by
  show (cfg3.win 4).cut (grid3.coords t) ((dat3 (F := Ideal) V c).after 4 t) = _
  rw [after3_4, out3_4_eq H]
  obtain ⟨e00, e01, e02, e10, e11, e12, e20, e21, e22, e40, e41, e42, e43, b0, b1, b2⟩ := idx_facts t
  funext y
  have hy0 : (y 0).val < 1 := (y 0).isLt
  have hy1 : (y 1).val < 2 := (y 1).isLt
  have hy2 : (y 2).val < 256 := (y 2).isLt
  have hy3 : (y 3).val < 2048 := (y 3).isLt
  refine attn_point (iblk3 V c 0 t) (iblk3 V c 1 t) (V c main_v4) (V c main_v9) _ _ _ _ _ ?_ ?_ _ _ ?_
  · intro d
    have hd : d.val < 64 := d.isLt
    show V c main_v4 (((cfg3.win 0).blk t).view.emb (ix3 (0 : Fin 1) ⟨(y 2).val, (y 2).isLt⟩ (lane ⟨(y 1).val, (y 1).isLt⟩ d))) = V c main_v4 _
    refine congrArg (V c main_v4) (funext fun a => Fin.ext ?_)
    match a with
    | ⟨0, _⟩ => show win3_0.index t (0 : Fin 3) * 1 + 1 * 0 = win3_4.index t (0 : Fin 4) * 1 + 1 * (y 0).val; omega
    | ⟨1, _⟩ => show win3_0.index t (1 : Fin 3) * 256 + 1 * (y 2).val = win3_4.index t (2 : Fin 4) * 256 + 1 * (y 2).val; omega
    | ⟨2, _⟩ => show win3_0.index t (2 : Fin 3) * 128 + 1 * ((y 1).val * 64 + d.val) = (win3_4.index t (1 : Fin 4) * 2 + 1 * (y 1).val) * 64 + d.val; omega
  · intro k d
    have hd : d.val < 64 := d.isLt
    show V c main_v9 (((cfg3.win 1).blk t).view.emb (ix3 (0 : Fin 1) k (lane ⟨(y 1).val, (y 1).isLt⟩ d))) = V c main_v9 _
    refine congrArg (V c main_v9) (funext fun a => Fin.ext ?_)
    match a with
    | ⟨0, _⟩ => show win3_1.index t (0 : Fin 3) * 1 + 1 * 0 = win3_4.index t (0 : Fin 4) * 1 + 1 * (y 0).val; omega
    | ⟨1, _⟩ => show win3_1.index t (1 : Fin 3) * 2048 + 1 * k.val = k.val; omega
    | ⟨2, _⟩ => show win3_1.index t (2 : Fin 3) * 128 + 1 * ((y 1).val * 64 + d.val) = (win3_4.index t (1 : Fin 4) * 2 + 1 * (y 1).val) * 64 + d.val; omega
  · show (y 3).val = win3_4.index t (3 : Fin 4) * 2048 + 1 * (y 3).val
    omega

/-- An index of the context array is in point t's block iff each coordinate is in the block's range on its axis. -/
theorem mem_blk_ctx (t : Fin cfg3.N) (i : S2x2048x1024.Idx) :
    i ∈ ((cfg3.win 3).blk t).view.set ↔ ∀ a : Fin 3, win3_3.index t a * S1x256x128.size a ≤ (i a).val ∧ (i a).val < win3_3.index t a * S1x256x128.size a + S1x256x128.size a := by
  show i ∈ ((View.whole main_v15_0).slice (win3_3.rect t)).set ↔ _
  rw [View.set_slice_whole, Rect.mem_set_unit]
  exact Iff.rfl

/-- An index of the weights array is in point t's block iff each coordinate is in the block's range on its axis. -/
theorem mem_blk_attn (t : Fin cfg3.N) (i : S2x16x2048x2048.Idx) :
    i ∈ ((cfg3.win 4).blk t).view.set ↔ ∀ a : Fin 4, win3_4.index t a * S1x2x256x2048.size a ≤ (i a).val ∧ (i a).val < win3_4.index t a * S1x2x256x2048.size a + S1x2x256x2048.size a := by
  show i ∈ ((View.whole main_v15_1).slice (win3_4.rect t)).set ↔ _
  rw [View.set_slice_whole, Rect.mem_set_unit]
  exact Iff.rfl

/-- Entry (b, s, e) of the context array lies in the block of point (b, e / 128, s / 256). -/
theorem cover_ctx (i : S2x2048x1024.Idx) : ∃ t : Fin cfg3.N, (cfg3.win 3).flush t = true ∧ i ∈ ((cfg3.win 3).blk t).view.set := by
  have hi0 : (i 0).val < 2 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩ ⟨(i 2).val / 128, by omega⟩
  have q0 : win3_3.index t (0 : Fin 3) = (i 0).val := congrFun ht 0
  have q1 : win3_3.index t (1 : Fin 3) = (i 1).val / 256 := congrFun ht 1
  have q2 : win3_3.index t (2 : Fin 3) = (i 2).val / 128 := congrFun ht 2
  refine ⟨t, flush3_3 t, ?_⟩
  rw [mem_blk_ctx]
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 256 ≤ (i 1).val ∧ (i 1).val < win3_3.index t (1 : Fin 3) * 256 + 256; omega
  | ⟨2, _⟩ => show win3_3.index t (2 : Fin 3) * 128 ≤ (i 2).val ∧ (i 2).val < win3_3.index t (2 : Fin 3) * 128 + 128; omega

/-- Entry (b, h, q, k) of the weights array lies in the block of point (b, h / 2, q / 256). -/
theorem cover_attn (i : S2x16x2048x2048.Idx) : ∃ t : Fin cfg3.N, (cfg3.win 4).flush t = true ∧ i ∈ ((cfg3.win 4).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := idx_onto ⟨(i 0).val, hi0⟩ ⟨(i 2).val / 256, by omega⟩ ⟨(i 1).val / 2, by omega⟩
  have q0 : win3_3.index t (0 : Fin 3) = (i 0).val := congrFun ht 0
  have q1 : win3_3.index t (1 : Fin 3) = (i 2).val / 256 := congrFun ht 1
  have q2 : win3_3.index t (2 : Fin 3) = (i 1).val / 2 := congrFun ht 2
  obtain ⟨e00, e01, e02, e10, e11, e12, e20, e21, e22, e40, e41, e42, e43, b0, b1, b2⟩ := idx_facts t
  refine ⟨t, flush3_4 t, ?_⟩
  rw [mem_blk_attn]
  intro a
  match a with
  | ⟨0, _⟩ => show win3_4.index t (0 : Fin 4) * 1 ≤ (i 0).val ∧ (i 0).val < win3_4.index t (0 : Fin 4) * 1 + 1; omega
  | ⟨1, _⟩ => show win3_4.index t (1 : Fin 4) * 2 ≤ (i 1).val ∧ (i 1).val < win3_4.index t (1 : Fin 4) * 2 + 2; omega
  | ⟨2, _⟩ => show win3_4.index t (2 : Fin 4) * 256 ≤ (i 2).val ∧ (i 2).val < win3_4.index t (2 : Fin 4) * 256 + 256; omega
  | ⟨3, _⟩ => show win3_4.index t (3 : Fin 4) * 2048 ≤ (i 3).val ∧ (i 3).val < win3_4.index t (3 : Fin 4) * 2048 + 2048; omega

/-- The context array when the launch ends. -/
theorem final_ctx (H : PieceFacts) (c : Dev nD) :
    (dat3 (F := Ideal) V c).arrAt 3 cfg3.N = ctxA (V c main_v4) (V c main_v9) (V c main_v14) :=
  (dat3 (F := Ideal) V c).arrAt_eq_of_cover 3 _ (fun t _ => flushed_ctx V H c t) cover_ctx

/-- The weights array when the launch ends. -/
theorem final_attn (H : PieceFacts) (c : Dev nD) :
    (dat3 (F := Ideal) V c).arrAt 4 cfg3.N = attnA (V c main_v4) (V c main_v9) :=
  (dat3 (F := Ideal) V c).arrAt_eq_of_cover 4 _ (fun t _ => flushed_attn V H c t) cover_attn

end Cert.KernelIdeal.Launch3

end
-- ==== Proof.KLaunch4.lean ====
/-
  The output-projection launch: what its output array holds when the launch ends. The grid has four points; point t reads
  rows 1024t … 1024t+1023 of the [4096, 1024] activation matrix, the whole weight matrix and the bias row, and writes
  back the same rows of the output, so the four blocks tile the output and every entry (i, e) ends at
  Σ_k X[i,k] · W[e,k] + B[0,e] of the arrays as the launch finds them.
-/
import proofs.«147473_j89876485636546_2_alg».proof.Proof.Gen.KernelIdeal.Frame
import proofs.«147473_j89876485636546_2_alg».proof.Proof.KLinear
import proofs.«147473_j89876485636546_2_alg».proof.Proof.KLinM

set_option maxRecDepth 16384

noncomputable section

namespace Cert.KernelIdeal.Launch4

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the activation and output blocks move together down the rows, the weight
    and bias blocks stay at the origin. -/
theorem idx_facts : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 :=
  (by decide +kernel : ∀ t : Fin grid4.N, _)

/-- Every row block of the output is some point's. -/
theorem idx_onto : ∀ q0 : Fin 4, ∃ t : Fin cfg4.N, win4_3.index t = ![q0.val, 0] :=
  (by decide +kernel : ∀ q0 : Fin 4, ∃ t : Fin grid4.N, win4_3.index t = ![q0.val, 0])

/-- What point t writes back is block t of the linear layer of the arrays as the launch finds them. -/
theorem flushed_eq (c : Dev nD) (t : Fin cfg4.N) :
    (dat4 (F := Ideal) V c).flushed 3 t
      = ((cfg4.win 3).blk t).view.read (Elt Ideal) (linM (V c main_v16) (V c main_v17) (V c main_v18)) := by
  show (cfg4.win 3).cut (grid4.coords t) ((dat4 (F := Ideal) V c).after 3 t) = _
  rw [after4_3]
  unfold out4_3
  rw [View.canon_unit_zero hz]
  simp only [View.ld_unit_zero (S := S1024x1024) hz, View.ld_unit_zero (S := S1x1024) hz]
  obtain ⟨e0, e1, e2, e3, e4, e5, e6⟩ := idx_facts t
  funext y
  refine point_lin _ _ _ _ (k4_pay1_at _ _ _) (V c main_v16) (V c main_v17) (V c main_v18) y (((cfg4.win 3).blk t).view.emb y) ?_ ?_ ?_
  · intro k
    show V c main_v16 (((cfg4.win 0).blk t).view.emb (ix2 (y 0) k)) = V c main_v16 (ix2 ((((cfg4.win 3).blk t).view.emb y) 0) k)
    refine congrArg (V c main_v16) (funext fun a => Fin.ext ?_)
    match a with
    | ⟨0, _⟩ => show win4_0.index t (0 : Fin 2) * 1024 + 1 * (y 0).val = win4_3.index t (0 : Fin 2) * 1024 + 1 * (y 0).val; omega
    | ⟨1, _⟩ => show win4_0.index t (1 : Fin 2) * 1024 + 1 * k.val = k.val; omega
  · intro k
    show V c main_v17 (((cfg4.win 1).blk t).view.emb (ix2 (y 1) k)) = V c main_v17 (ix2 ((((cfg4.win 3).blk t).view.emb y) 1) k)
    refine congrArg (V c main_v17) (funext fun a => Fin.ext ?_)
    match a with
    | ⟨0, _⟩ => show win4_1.index t (0 : Fin 2) * 1024 + 1 * (y 1).val = win4_3.index t (1 : Fin 2) * 1024 + 1 * (y 1).val; omega
    | ⟨1, _⟩ => show win4_1.index t (1 : Fin 2) * 1024 + 1 * k.val = k.val; omega
  · show V c main_v18 (((cfg4.win 2).blk t).view.emb (ix2 (0 : Fin 1) (y 1))) = V c main_v18 (ix2 (0 : Fin 1) ((((cfg4.win 3).blk t).view.emb y) 1))
    refine congrArg (V c main_v18) (funext fun a => Fin.ext ?_)
    match a with
    | ⟨0, _⟩ => show win4_2.index t (0 : Fin 2) * 1 + 1 * 0 = 0; omega
    | ⟨1, _⟩ => show win4_2.index t (1 : Fin 2) * 1024 + 1 * (y 1).val = win4_3.index t (1 : Fin 2) * 1024 + 1 * (y 1).val; omega

/-- An index of the output is in point t's block iff each coordinate is in the block's range on its axis. -/
theorem mem_blk (t : Fin cfg4.N) (i : S4096x1024.Idx) :
    i ∈ ((cfg4.win 3).blk t).view.set ↔ ∀ a : Fin 2, win4_3.index t a * S1024x1024.size a ≤ (i a).val ∧ (i a).val < win4_3.index t a * S1024x1024.size a + S1024x1024.size a := by
  show i ∈ ((View.whole main_v19).slice (win4_3.rect t)).set ↔ _
  rw [View.set_slice_whole, Rect.mem_set_unit]
  exact Iff.rfl

/-- Row i lies in the block of point i / 1024: the four blocks tile the output. -/
theorem cover (i : S4096x1024.Idx) : ∃ t : Fin cfg4.N, (cfg4.win 3).flush t = true ∧ i ∈ ((cfg4.win 3).blk t).view.set := by
  have hi0 : (i 0).val < 4096 := (i 0).isLt
  have hi1 : (i 1).val < 1024 := (i 1).isLt
  obtain ⟨t, ht⟩ := idx_onto ⟨(i 0).val / 1024, by omega⟩
  have q0 : win4_3.index t (0 : Fin 2) = (i 0).val / 1024 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 1024 ≤ (i 0).val ∧ (i 0).val < win4_3.index t (0 : Fin 2) * 1024 + 1024; omega
  | ⟨1, _⟩ => show win4_3.index t (1 : Fin 2) * 1024 ≤ (i 1).val ∧ (i 1).val < win4_3.index t (1 : Fin 2) * 1024 + 1024; omega

/-- The output array when the launch ends: the linear layer of the arrays as the launch finds them. -/
theorem final (c : Dev nD) :
    (dat4 (F := Ideal) V c).arrAt 3 cfg4.N = linM (V c main_v16) (V c main_v17) (V c main_v18) :=
  (dat4 (F := Ideal) V c).arrAt_eq_of_cover 3 _ (fun t _ => flushed_eq V c t) cover

end Cert.KernelIdeal.Launch4

end
-- ==== Proof.KFold.lean ====
/-
  The kernel program's buffer contents, boundary by boundary, read back to the launch memory. The program is: for
  each of q, k, v — reshape the [2, 2048, 1024] argument to [4096, 1024] rows, change the weight's float format, view the
  bias as a [1, 1024] row, launch the linear kernel, reshape its [4096, 1024] result to [2, 2048, 1024] —; then the
  attention launch on the three projected arrays; then the same linear pipeline on the context array. A host stretch
  changes only the buffers its operations write, a launch only its output arrays, so each buffer a later step reads
  still holds what the step that wrote it left there.
-/
import proofs.«147473_j89876485636546_2_alg».proof.Proof.Gen.KernelIdeal.Frame
import proofs.«147473_j89876485636546_2_alg».proof.Proof.KLaunch0
import proofs.«147473_j89876485636546_2_alg».proof.Proof.KLaunch1
import proofs.«147473_j89876485636546_2_alg».proof.Proof.KLaunch2
import proofs.«147473_j89876485636546_2_alg».proof.Proof.KLaunch3
import proofs.«147473_j89876485636546_2_alg».proof.Proof.KLaunch4
import Idealize.ShloMosaic.Lib.StableHlo.Run

set_option maxRecDepth 16384

noncomputable section

namespace Cert.KernelIdeal.Fold

open Cert.KernelIdeal Cert.KernelIdeal.Gen Cert.KernelIdeal.Body
open Idealize.ShloMosaic Idealize.ShloMosaic.TcCoe Idealize.ShloMosaic.StableHlo Idealize.SL.Sem

/-- One linear pipeline of the kernel program on a [2, 2048, 1024] array: rows flattened, the linear layer, rows
    unflattened; the weight through its change of float format, the bias as a row. -/
def projK (x : S2x2048x1024.Idx → EReal) (w : S1024x1024.Idx → EReal) (b : S1024.Idx → EReal) : S2x2048x1024.Idx → EReal :=
  shapeCast S2x2048x1024
    (linM (shapeCast S4096x1024 x shapeCasts_S2x2048x1024_S4096x1024) (truncf (F := Ideal) .bf16 (w : FVec Ideal S1024x1024 .f32) bitsLt_bf16_f32)
      (shapeCast S1x1024 b shapeCasts_S1024_S1x1024))
    shapeCasts_S4096x1024_S2x2048x1024

variable (m : (ℓ : Loc nD τ sig) → Buf (Elt Ideal) ℓ) (ρ : Dev nD → PrngReg) (c : Dev nD)

/-! ## What each host stretch writes -/

/-- The query rows, flattened. -/
theorem s0_x : (W1 m ρ c (Proc.devRef .tc main_v0) : S4096x1024.Idx → EReal) = shapeCast S4096x1024 (W0 m ρ c (Proc.devRef .tc main_arg0) : S2x2048x1024.Idx → EReal) shapeCasts_S2x2048x1024_S4096x1024 := by
  show StableHlo.after hostOps0 (W0 m ρ c) (Proc.devRef .tc main_v0) = _
  after_results
  rfl
/-- The query weight, in the narrower format. -/
theorem s0_w : (W1 m ρ c (Proc.devRef .tc main_v1) : S1024x1024.Idx → EReal) = truncf (F := Ideal) .bf16 (W0 m ρ c (Proc.devRef .tc main_arg3) : FVec Ideal S1024x1024 .f32) bitsLt_bf16_f32 := by
  show StableHlo.after hostOps0 (W0 m ρ c) (Proc.devRef .tc main_v1) = _
  after_results
/-- The query bias, as a row. -/
theorem s0_b : (W1 m ρ c (Proc.devRef .tc main_v2) : S1x1024.Idx → EReal) = shapeCast S1x1024 (W0 m ρ c (Proc.devRef .tc main_arg4) : S1024.Idx → EReal) shapeCasts_S1024_S1x1024 := by
  show StableHlo.after hostOps0 (W0 m ρ c) (Proc.devRef .tc main_v2) = _
  after_results
  rfl
/-- The projected queries, unflattened. -/
theorem s1_y : (W3 m ρ c (Proc.devRef .tc main_v4) : S2x2048x1024.Idx → EReal) = shapeCast S2x2048x1024 (W2 m ρ c (Proc.devRef .tc main_v3) : S4096x1024.Idx → EReal) shapeCasts_S4096x1024_S2x2048x1024 := by
  show StableHlo.after hostOps1 (W2 m ρ c) (Proc.devRef .tc main_v4) = _
  after_results
  rfl
/-- The key rows, flattened. -/
theorem s1_x : (W3 m ρ c (Proc.devRef .tc main_v5) : S4096x1024.Idx → EReal) = shapeCast S4096x1024 (W2 m ρ c (Proc.devRef .tc main_arg1) : S2x2048x1024.Idx → EReal) shapeCasts_S2x2048x1024_S4096x1024 := by
  show StableHlo.after hostOps1 (W2 m ρ c) (Proc.devRef .tc main_v5) = _
  after_results
  rfl
/-- The key weight, in the narrower format. -/
theorem s1_w : (W3 m ρ c (Proc.devRef .tc main_v6) : S1024x1024.Idx → EReal) = truncf (F := Ideal) .bf16 (W2 m ρ c (Proc.devRef .tc main_arg5) : FVec Ideal S1024x1024 .f32) bitsLt_bf16_f32 := by
  show StableHlo.after hostOps1 (W2 m ρ c) (Proc.devRef .tc main_v6) = _
  after_results
/-- The key bias, as a row. -/
theorem s1_b : (W3 m ρ c (Proc.devRef .tc main_v7) : S1x1024.Idx → EReal) = shapeCast S1x1024 (W2 m ρ c (Proc.devRef .tc main_arg6) : S1024.Idx → EReal) shapeCasts_S1024_S1x1024 := by
  show StableHlo.after hostOps1 (W2 m ρ c) (Proc.devRef .tc main_v7) = _
  after_results
  rfl
/-- The projected keys, unflattened. -/
theorem s2_y : (W5 m ρ c (Proc.devRef .tc main_v9) : S2x2048x1024.Idx → EReal) = shapeCast S2x2048x1024 (W4 m ρ c (Proc.devRef .tc main_v8) : S4096x1024.Idx → EReal) shapeCasts_S4096x1024_S2x2048x1024 := by
  show StableHlo.after hostOps2 (W4 m ρ c) (Proc.devRef .tc main_v9) = _
  after_results
  rfl
/-- The value rows, flattened. -/
theorem s2_x : (W5 m ρ c (Proc.devRef .tc main_v10) : S4096x1024.Idx → EReal) = shapeCast S4096x1024 (W4 m ρ c (Proc.devRef .tc main_arg2) : S2x2048x1024.Idx → EReal) shapeCasts_S2x2048x1024_S4096x1024 := by
  show StableHlo.after hostOps2 (W4 m ρ c) (Proc.devRef .tc main_v10) = _
  after_results
  rfl
/-- The value weight, in the narrower format. -/
theorem s2_w : (W5 m ρ c (Proc.devRef .tc main_v11) : S1024x1024.Idx → EReal) = truncf (F := Ideal) .bf16 (W4 m ρ c (Proc.devRef .tc main_arg7) : FVec Ideal S1024x1024 .f32) bitsLt_bf16_f32 := by
  show StableHlo.after hostOps2 (W4 m ρ c) (Proc.devRef .tc main_v11) = _
  after_results
/-- The value bias, as a row. -/
theorem s2_b : (W5 m ρ c (Proc.devRef .tc main_v12) : S1x1024.Idx → EReal) = shapeCast S1x1024 (W4 m ρ c (Proc.devRef .tc main_arg8) : S1024.Idx → EReal) shapeCasts_S1024_S1x1024 := by
  show StableHlo.after hostOps2 (W4 m ρ c) (Proc.devRef .tc main_v12) = _
  after_results
  rfl
/-- The projected values, unflattened. -/
theorem s3_y : (W7 m ρ c (Proc.devRef .tc main_v14) : S2x2048x1024.Idx → EReal) = shapeCast S2x2048x1024 (W6 m ρ c (Proc.devRef .tc main_v13) : S4096x1024.Idx → EReal) shapeCasts_S4096x1024_S2x2048x1024 := by
  show StableHlo.after hostOps3 (W6 m ρ c) (Proc.devRef .tc main_v14) = _
  after_results
  rfl
/-- The context rows, flattened. -/
theorem s4_x : (W9 m ρ c (Proc.devRef .tc main_v16) : S4096x1024.Idx → EReal) = shapeCast S4096x1024 (W8 m ρ c (Proc.devRef .tc main_v15_0) : S2x2048x1024.Idx → EReal) shapeCasts_S2x2048x1024_S4096x1024 := by
  show StableHlo.after hostOps4 (W8 m ρ c) (Proc.devRef .tc main_v16) = _
  after_results
  rfl
/-- The output weight, in the narrower format. -/
theorem s4_w : (W9 m ρ c (Proc.devRef .tc main_v17) : S1024x1024.Idx → EReal) = truncf (F := Ideal) .bf16 (W8 m ρ c (Proc.devRef .tc main_arg9) : FVec Ideal S1024x1024 .f32) bitsLt_bf16_f32 := by
  show StableHlo.after hostOps4 (W8 m ρ c) (Proc.devRef .tc main_v17) = _
  after_results
/-- The output bias, as a row. -/
theorem s4_b : (W9 m ρ c (Proc.devRef .tc main_v18) : S1x1024.Idx → EReal) = shapeCast S1x1024 (W8 m ρ c (Proc.devRef .tc main_arg10) : S1024.Idx → EReal) shapeCasts_S1024_S1x1024 := by
  show StableHlo.after hostOps4 (W8 m ρ c) (Proc.devRef .tc main_v18) = _
  after_results
  rfl
/-- The result, unflattened. -/
theorem s5_y : (W11 m ρ c (Proc.devRef .tc main_v20) : S2x2048x1024.Idx → EReal) = shapeCast S2x2048x1024 (W10 m ρ c (Proc.devRef .tc main_v19) : S4096x1024.Idx → EReal) shapeCasts_S4096x1024_S2x2048x1024 := by
  show StableHlo.after hostOps5 (W10 m ρ c) (Proc.devRef .tc main_v20) = _
  after_results
  rfl

/-! ## What is left alone in between -/

/-- An argument of the key projection is as launched when its stretch reads it. -/
theorem k2_arg1 : W2 m ρ c (Proc.devRef .tc main_arg1) = W0 m ρ c (Proc.devRef .tc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.unary_writes, StableHlo.reshape_writes, Finset.mem_singleton]
          repeat' apply And.intro
          all_goals exact StableHlo.devRef_ne_of_ne (by decide)))
/-- An argument of the key projection is as launched when its stretch reads it. -/
theorem k2_arg5 : W2 m ρ c (Proc.devRef .tc main_arg5) = W0 m ρ c (Proc.devRef .tc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.unary_writes, StableHlo.reshape_writes, Finset.mem_singleton]
          repeat' apply And.intro
          all_goals exact StableHlo.devRef_ne_of_ne (by decide)))
/-- An argument of the key projection is as launched when its stretch reads it. -/
theorem k2_arg6 : W2 m ρ c (Proc.devRef .tc main_arg6) = W0 m ρ c (Proc.devRef .tc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.unary_writes, StableHlo.reshape_writes, Finset.mem_singleton]
          repeat' apply And.intro
          all_goals exact StableHlo.devRef_ne_of_ne (by decide)))
/-- An argument of the value projection is as launched when its stretch reads it. -/
theorem k4_arg2 : W4 m ρ c (Proc.devRef .tc main_arg2) = W0 m ρ c (Proc.devRef .tc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.unary_writes, StableHlo.reshape_writes, Finset.mem_singleton]
          repeat' apply And.intro
          all_goals exact StableHlo.devRef_ne_of_ne (by decide)))
/-- An argument of the value projection is as launched when its stretch reads it. -/
theorem k4_arg7 : W4 m ρ c (Proc.devRef .tc main_arg7) = W0 m ρ c (Proc.devRef .tc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.unary_writes, StableHlo.reshape_writes, Finset.mem_singleton]
          repeat' apply And.intro
          all_goals exact StableHlo.devRef_ne_of_ne (by decide)))
/-- An argument of the value projection is as launched when its stretch reads it. -/
theorem k4_arg8 : W4 m ρ c (Proc.devRef .tc main_arg8) = W0 m ρ c (Proc.devRef .tc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.unary_writes, StableHlo.reshape_writes, Finset.mem_singleton]
          repeat' apply And.intro
          all_goals exact StableHlo.devRef_ne_of_ne (by decide)))
/-- An argument of the output projection is as launched when its stretch reads it. -/
theorem k8_arg9 : W8 m ρ c (Proc.devRef .tc main_arg9) = W0 m ρ c (Proc.devRef .tc main_arg9) :=
  calc W8 m ρ c (Proc.devRef .tc main_arg9)
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps3, List.Forall, StableHlo.unary_writes, StableHlo.reshape_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.Forall, StableHlo.unary_writes, StableHlo.reshape_writes, Finset.mem_singleton]
          repeat' apply And.intro
          all_goals exact StableHlo.devRef_ne_of_ne (by decide)))
/-- An argument of the output projection is as launched when its stretch reads it. -/
theorem k8_arg10 : W8 m ρ c (Proc.devRef .tc main_arg10) = W0 m ρ c (Proc.devRef .tc main_arg10) :=
  calc W8 m ρ c (Proc.devRef .tc main_arg10)
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps3, List.Forall, StableHlo.unary_writes, StableHlo.reshape_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.Forall, StableHlo.unary_writes, StableHlo.reshape_writes, Finset.mem_singleton]
          repeat' apply And.intro
          all_goals exact StableHlo.devRef_ne_of_ne (by decide)))
/-- The projected queries are untouched until the attention launch reads them. -/
theorem k7_v4 : W7 m ρ c (Proc.devRef .tc main_v4) = W3 m ρ c (Proc.devRef .tc main_v4) :=
  calc W7 m ρ c (Proc.devRef .tc main_v4)
    _ = W6 m ρ c (Proc.devRef .tc main_v4) := StableHlo.after_of_forall_not_mem (b := Proc.devRef .tc main_v4) _ _ (List.forall_iff_forall_mem.mp (by
          simp only [hostOps3, List.Forall, StableHlo.unary_writes, StableHlo.reshape_writes, Finset.mem_singleton]
          repeat' apply And.intro
          all_goals exact StableHlo.devRef_ne_of_ne (by decide)))
    _ = W5 m ρ c (Proc.devRef .tc main_v4) := W6_of_ne m ρ c main_v4 (by decide)
    _ = W4 m ρ c (Proc.devRef .tc main_v4) := StableHlo.after_of_forall_not_mem (b := Proc.devRef .tc main_v4) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m ρ c (Proc.devRef .tc main_v4) := W4_of_ne m ρ c main_v4 (by decide)
/-- The projected keys are untouched until the attention launch reads them. -/
theorem k7_v9 : W7 m ρ c (Proc.devRef .tc main_v9) = W5 m ρ c (Proc.devRef .tc main_v9) :=
  calc W7 m ρ c (Proc.devRef .tc main_v9)
    _ = W6 m ρ c (Proc.devRef .tc main_v9) := StableHlo.after_of_forall_not_mem (b := Proc.devRef .tc main_v9) _ _ (List.forall_iff_forall_mem.mp (by
          simp only [hostOps3, List.Forall, StableHlo.unary_writes, StableHlo.reshape_writes, Finset.mem_singleton]
          repeat' apply And.intro
          all_goals exact StableHlo.devRef_ne_of_ne (by decide)))
    _ = W5 m ρ c (Proc.devRef .tc main_v9) := W6_of_ne m ρ c main_v9 (by decide)
/-- The attention weights are untouched after the attention launch. -/
theorem k11_attn : W11 m ρ c (Proc.devRef .tc main_v15_1) = W8 m ρ c (Proc.devRef .tc main_v15_1) :=
  calc W11 m ρ c (Proc.devRef .tc main_v15_1)
    _ = W10 m ρ c (Proc.devRef .tc main_v15_1) := StableHlo.after_of_forall_not_mem (b := Proc.devRef .tc main_v15_1) _ _ (List.forall_iff_forall_mem.mp (by
          simp only [hostOps5, List.Forall, StableHlo.unary_writes, StableHlo.reshape_writes, Finset.mem_singleton]
          repeat' apply And.intro
          all_goals exact StableHlo.devRef_ne_of_ne (by decide)))
    _ = W9 m ρ c (Proc.devRef .tc main_v15_1) := W10_of_ne m ρ c main_v15_1 (by decide)
    _ = W8 m ρ c (Proc.devRef .tc main_v15_1) := StableHlo.after_of_forall_not_mem (b := Proc.devRef .tc main_v15_1) _ _ (List.forall_iff_forall_mem.mp (by
          simp only [hostOps4, List.Forall, StableHlo.unary_writes, StableHlo.reshape_writes, Finset.mem_singleton]
          repeat' apply And.intro
          all_goals exact StableHlo.devRef_ne_of_ne (by decide)))

/-! ## The launches' arrays -/

/-- The projected queries, keys and values as the attention launch finds them, and the context it leaves. -/
theorem q_proj : (W7 m ρ c (Proc.devRef .tc main_v4) : S2x2048x1024.Idx → EReal)
    = projK (m ((c : Thread nD τ).loc main_arg0)) (m ((c : Thread nD τ).loc main_arg3)) (m ((c : Thread nD τ).loc main_arg4)) := by
  rw [k7_v4, s1_y]
  unfold projK
  rw [show (W2 m ρ c (Proc.devRef .tc main_v3) : S4096x1024.Idx → EReal) = _ from (W2_arr m ρ c 3).trans (Launch0.final (V1 m ρ) c)]
  rw [show (V1 m ρ c main_v0 : S4096x1024.Idx → EReal) = _ from s0_x m ρ c, show (V1 m ρ c main_v1 : S1024x1024.Idx → EReal) = _ from s0_w m ρ c,
    show (V1 m ρ c main_v2 : S1x1024.Idx → EReal) = _ from s0_b m ρ c]

theorem k_proj : (W7 m ρ c (Proc.devRef .tc main_v9) : S2x2048x1024.Idx → EReal)
    = projK (m ((c : Thread nD τ).loc main_arg1)) (m ((c : Thread nD τ).loc main_arg5)) (m ((c : Thread nD τ).loc main_arg6)) := by
  rw [k7_v9, s2_y]
  unfold projK
  rw [show (W4 m ρ c (Proc.devRef .tc main_v8) : S4096x1024.Idx → EReal) = _ from (W4_arr m ρ c 3).trans (Launch1.final (V3 m ρ) c)]
  rw [show (V3 m ρ c main_v5 : S4096x1024.Idx → EReal) = _ from s1_x m ρ c, show (V3 m ρ c main_v6 : S1024x1024.Idx → EReal) = _ from s1_w m ρ c,
    show (V3 m ρ c main_v7 : S1x1024.Idx → EReal) = _ from s1_b m ρ c]
  rw [k2_arg1, k2_arg5, k2_arg6]

theorem v_proj : (W7 m ρ c (Proc.devRef .tc main_v14) : S2x2048x1024.Idx → EReal)
    = projK (m ((c : Thread nD τ).loc main_arg2)) (m ((c : Thread nD τ).loc main_arg7)) (m ((c : Thread nD τ).loc main_arg8)) := by
  rw [s3_y]
  unfold projK
  rw [show (W6 m ρ c (Proc.devRef .tc main_v13) : S4096x1024.Idx → EReal) = _ from (W6_arr m ρ c 3).trans (Launch2.final (V5 m ρ) c)]
  rw [show (V5 m ρ c main_v10 : S4096x1024.Idx → EReal) = _ from s2_x m ρ c, show (V5 m ρ c main_v11 : S1024x1024.Idx → EReal) = _ from s2_w m ρ c,
    show (V5 m ρ c main_v12 : S1x1024.Idx → EReal) = _ from s2_b m ρ c]
  rw [k4_arg2, k4_arg7, k4_arg8]

/-- The attention-weights result: the attention weights of the projected queries and keys. -/
theorem attn_result (H : PieceFacts) : (W11 m ρ c (Proc.devRef .tc main_v15_1) : S2x16x2048x2048.Idx → EReal)
    = Launch3.attnA (projK (m ((c : Thread nD τ).loc main_arg0)) (m ((c : Thread nD τ).loc main_arg3)) (m ((c : Thread nD τ).loc main_arg4)))
        (projK (m ((c : Thread nD τ).loc main_arg1)) (m ((c : Thread nD τ).loc main_arg5)) (m ((c : Thread nD τ).loc main_arg6))) := by
  rw [k11_attn]
  rw [show (W8 m ρ c (Proc.devRef .tc main_v15_1) : S2x16x2048x2048.Idx → EReal) = _ from (W8_arr m ρ c 4).trans (Launch3.final_attn (V7 m ρ) H c)]
  rw [show (V7 m ρ c main_v4 : S2x2048x1024.Idx → EReal) = _ from q_proj m ρ c, show (V7 m ρ c main_v9 : S2x2048x1024.Idx → EReal) = _ from k_proj m ρ c]

/-- The output result: the linear pipeline on the context of the three projected arrays. -/
theorem out_result (H : PieceFacts) : (W11 m ρ c (Proc.devRef .tc main_v20) : S2x2048x1024.Idx → EReal)
    = projK (Launch3.ctxA (projK (m ((c : Thread nD τ).loc main_arg0)) (m ((c : Thread nD τ).loc main_arg3)) (m ((c : Thread nD τ).loc main_arg4)))
        (projK (m ((c : Thread nD τ).loc main_arg1)) (m ((c : Thread nD τ).loc main_arg5)) (m ((c : Thread nD τ).loc main_arg6)))
        (projK (m ((c : Thread nD τ).loc main_arg2)) (m ((c : Thread nD τ).loc main_arg7)) (m ((c : Thread nD τ).loc main_arg8))))
      (m ((c : Thread nD τ).loc main_arg9)) (m ((c : Thread nD τ).loc main_arg10)) := by
  rw [s5_y]
  unfold projK
  rw [show (W10 m ρ c (Proc.devRef .tc main_v19) : S4096x1024.Idx → EReal) = _ from (W10_arr m ρ c 3).trans (Launch4.final (V9 m ρ) c)]
  rw [show (V9 m ρ c main_v16 : S4096x1024.Idx → EReal) = _ from s4_x m ρ c, show (V9 m ρ c main_v17 : S1024x1024.Idx → EReal) = _ from s4_w m ρ c,
    show (V9 m ρ c main_v18 : S1x1024.Idx → EReal) = _ from s4_b m ρ c]
  rw [show (W8 m ρ c (Proc.devRef .tc main_v15_0) : S2x2048x1024.Idx → EReal) = _ from (W8_arr m ρ c 3).trans (Launch3.final_ctx (V7 m ρ) H c)]
  rw [show (V7 m ρ c main_v4 : S2x2048x1024.Idx → EReal) = _ from q_proj m ρ c, show (V7 m ρ c main_v9 : S2x2048x1024.Idx → EReal) = _ from k_proj m ρ c,
    show (V7 m ρ c main_v14 : S2x2048x1024.Idx → EReal) = _ from v_proj m ρ c]
  rw [k8_arg9, k8_arg10]
  rfl

end Cert.KernelIdeal.Fold

end
-- ==== Proof.LibPlainDot.lean ====
/-
  A plain matrix product's contraction sum, re-indexed by the contracted coordinate.

  For a dot of an [n, K] operand with a [K, M] operand into [n, M] that contracts the left operand's axis 1 with the
  right operand's axis 0 and has no batch axes, the sum over the contraction index of left(row i, k) * right(k, column i)
  is the sum over k : Fin K of L (i 0, k) * R (k, i 1): what both a kernel's matrix unit and a host dot_general
  compute at an output index over the extended reals.
-/
import Idealize.ShloMosaic.PureOps.Ideal.Laws
import Idealize.ShloMosaic.Lib.ValueIdx

namespace Cert.LibPlainDot

open Idealize.ShloMosaic Idealize.ShloMosaic.ValueIdx

variable {n K M : Nat}

/-- The dimension numbers of a plain product: contract axis 1 with axis 0, keep axis 0 and axis 1, no batch axes. -/
structure IsPlain (d : DotDims ⟨2, ![n, K]⟩ ⟨2, ![K, M]⟩ ⟨2, ![n, M]⟩) : Prop where
  lc : d.lhsContracting = [1]
  rc : d.rhsContracting = [0]
  ln : d.lhsNonContracting = [0]
  rn : d.rhsNonContracting = [1]
  lb : d.lhsBatch = []
  rb : d.rhsBatch = []

/-- The contraction sum of a plain product at output index `i` is the sum over the contracted coordinate. -/
theorem sum_contr {α : Type} [AddCommMonoid α] (d : DotDims ⟨2, ![n, K]⟩ ⟨2, ![K, M]⟩ ⟨2, ![n, M]⟩) (hd : IsPlain d)
    (f : (⟨2, ![n, K]⟩ : Shape).Idx → (⟨2, ![K, M]⟩ : Shape).Idx → α) (i : (⟨2, ![n, M]⟩ : Shape).Idx) :
    ∑ q : d.contr.Idx, f (d.lhsIdx i q) (d.rhsIdx i q) = ∑ k : Fin K, f (ix2 (i 0) k) (ix2 k (i 1)) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![K, M]⟩ ⟨2, ![n, M]⟩ := ⟨[1], [0], [0], [1], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 k (i 1) := funext fun a => Fin.ext (by
    match a with
    | ⟨0, _⟩ => exact (d.rhsIdx_val_of_single rfl i _).trans hk
    | ⟨1, _⟩ =>
      show (d.rhsIdx i _ 1).val = (i 1).val
      unfold DotDims.rhsIdx
      rw [dif_neg (show ¬(1 : Fin (⟨2, ![K, M]⟩ : Shape).rank) ∈ d.rhsBatch from List.not_mem_nil),
        dif_pos (show (1 : Fin (⟨2, ![K, M]⟩ : Shape).rank) ∈ d.rhsNonContracting from List.mem_singleton.mpr rfl)]
      rfl)
  rw [el, er]
  try rfl

end Cert.LibPlainDot
-- ==== Proof.LibColumn.lean ====
/-
  Two layout facts every keep-dimension row reduction meets: a vector of length a viewed as an [a, 1] column reads
  its entry at the row, and an [a, 1] column broadcast along the rows of an [a, b] matrix reads the column's entry
  at the row, whatever the column index.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KAttnBody.lean ====
/-
  The attention kernel body at an index. One launch point holds a [1, 256, 128] block of queries and [1, 2048, 128]
  blocks of keys and of values: two heads side by side, 64 lanes each. For head hi of the pair the body cuts the
  lanes [64 hi, 64 hi + 64) out of each block, multiplies queries by keys transposed into a zero accumulator and scales
  by 1/8, takes the softmax of every score row (the row maximum from −∞, the exponentials of the differences, their row
  sum from 0, the quotient), and multiplies the weights by the values into a zero accumulator. Over the extended reals
  the changes of float format are the identity, so entry (r, k) of the stored weights is the softmax of the row of
  scaled scores at k, and entry (r, d) of the stored context is Σ_k weights[r,k] · v[0,k,64hi+d].
-/
import proofs.«147473_j89876485636546_2_alg».proof.Proof.Gen.KernelIdeal.Skeleton
import proofs.«147473_j89876485636546_2_alg».proof.Proof.KAttnSpec
import proofs.«147473_j89876485636546_2_alg».proof.Proof.LibDotNT
import proofs.«147473_j89876485636546_2_alg».proof.Proof.LibPlainDot
import proofs.«147473_j89876485636546_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## Layout -/

/-- An [a, b] array cast to [1, 1, a, b] reads, at (u, w, i, j), the operand at (i, j). -/
theorem shapeCast_ab_11ab_apply {α : Type} {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw, Nat.zero_mul, Nat.zero_add])

/-- A vector of 256 row values, cast to a column and broadcast along the 2048 columns, reads the row's value. -/
theorem col_at {α : Type} (v : S256.Idx → α) (r : Fin 256) (k : Fin 2048) :
    broadcastTo S256x2048 (shapeCast S256x1 v shapeCasts_S256_S256x1) broadcasts_S256x1_S256x2048 (ix2 r k) = v (ix1 r) :=
  (Cert.LibColumn.broadcastTo_a1_ab_apply _ _ r k).trans (Cert.LibColumn.shapeCast_a_a1_apply v _ r 0)

/-- The index a reduction over the columns inserts at row r and column k is (r, k). -/
theorem lift_ix (r : Fin 256) (k : Fin 2048) : reduces_S256x2048_S256.lift (ix1 r) k = ix2 r k :=
  funext fun a => Fin.ext (by
    match a with
    | ⟨0, _⟩ => rfl
    | ⟨1, _⟩ => rfl)

/-! ## The two row reductions -/

/-- The maximum over the columns, from −∞, at row r: the maximum of the row. -/
theorem rowMax_at (s : FVec Ideal S256x2048 .f32) (hφ : FKind.Formats .f32)
    (hacc : (0xFF800000#32 : BitVec 32) = FKind.maximumf.neutral .f32 hφ) (r : Fin 256) :
    multiReduction .maximumf [1] S256 s 0xFF800000#32 reduces_S256x2048_S256 hφ hacc (ix1 r)
      = Cert.MHA.rowMax (fun k' => s (ix2 r k')) := by
  refine (Ideal.multiReduction_maximumf_single s 0xFF800000#32 reduces_S256x2048_S256 hφ hacc (ix1 r)).trans ?_
  show (Finset.univ : Finset (Fin 2048)).fold max Cert.MHA.negInf (fun k' => s (reduces_S256x2048_S256.lift (ix1 r) k')) = _
  exact congrArg (fun f => (Finset.univ : Finset (Fin 2048)).fold max Cert.MHA.negInf f)
    (funext fun k' => congrArg s (lift_ix r k'))

/-- The sum over the columns, from 0, at row r: the sum of the row. -/
theorem rowSum_at (e : FVec Ideal S256x2048 .f32) (hφ : FKind.Formats .f32)
    (hacc : (0x00000000#32 : BitVec 32) = FKind.add.neutral .f32 hφ) (r : Fin 256) :
    multiReduction .add [1] S256 e 0x00000000#32 reduces_S256x2048_S256 hφ hacc (ix1 r) = ∑ k' : Fin 2048, e (ix2 r k') := by
  refine (Ideal.multiReduction_add_single e 0x00000000#32 reduces_S256x2048_S256 hφ hacc (ix1 r)).trans ?_
  show ∑ k' : Fin 2048, e (reduces_S256x2048_S256.lift (ix1 r) k') = _
  exact Finset.sum_congr rfl fun k' _ => congrArg e (lift_ix r k')

/-! ## The softmax of a score matrix -/

/-- The exponentials of a score matrix less its row maxima. -/
def expShift (s : FVec Ideal S256x2048 .f32) (hφ : FKind.Formats .f32)
    (hm : (0xFF800000#32 : BitVec 32) = FKind.maximumf.neutral .f32 hφ) : FVec Ideal S256x2048 .f32 :=
  exp (subf s (broadcastTo S256x2048
    (shapeCast S256x1 (multiReduction .maximumf [1] S256 s 0xFF800000#32 reduces_S256x2048_S256 hφ hm) shapeCasts_S256_S256x1)
    broadcasts_S256x1_S256x2048))

/-- Those exponentials over their row sums. -/
def smx (s : FVec Ideal S256x2048 .f32) (hφ₁ : FKind.Formats .f32)
    (hm : (0xFF800000#32 : BitVec 32) = FKind.maximumf.neutral .f32 hφ₁) (hφ₂ : FKind.Formats .f32)
    (ha : (0x00000000#32 : BitVec 32) = FKind.add.neutral .f32 hφ₂) : FVec Ideal S256x2048 .f32 :=
  divf (expShift s hφ₁ hm) (broadcastTo S256x2048
    (shapeCast S256x1 (multiReduction .add [1] S256 (expShift s hφ₁ hm) 0x00000000#32 reduces_S256x2048_S256 hφ₂ ha) shapeCasts_S256_S256x1)
    broadcasts_S256x1_S256x2048)

/-- At (r, k): exp of the score less the maximum of its row. -/
theorem expShift_at (s : FVec Ideal S256x2048 .f32) (hφ : FKind.Formats .f32)
    (hm : (0xFF800000#32 : BitVec 32) = FKind.maximumf.neutral .f32 hφ) (r : Fin 256) (k : Fin 2048) :
    expShift s hφ hm (ix2 r k) = Ideal.exp (s (ix2 r k) - Cert.MHA.rowMax (fun k' => s (ix2 r k'))) := by
  have hc := (col_at (multiReduction .maximumf [1] S256 s 0xFF800000#32 reduces_S256x2048_S256 hφ hm) r k).trans
    (rowMax_at s hφ hm r)
  exact congrArg (fun m => Ideal.exp (s (ix2 r k) - m)) hc

/-- At (r, k): the softmax of row r of the scores, at k. -/
theorem smx_at (s : FVec Ideal S256x2048 .f32) (hφ₁ : FKind.Formats .f32)
    (hm : (0xFF800000#32 : BitVec 32) = FKind.maximumf.neutral .f32 hφ₁) (hφ₂ : FKind.Formats .f32)
    (ha : (0x00000000#32 : BitVec 32) = FKind.add.neutral .f32 hφ₂) (r : Fin 256) (k : Fin 2048) :
    smx s hφ₁ hm hφ₂ ha (ix2 r k) = Cert.MHA.softmax (fun k' => s (ix2 r k')) k := by
  have hden := (col_at (multiReduction .add [1] S256 (expShift s hφ₁ hm) 0x00000000#32 reduces_S256x2048_S256 hφ₂ ha) r k).trans
    ((rowSum_at (expShift s hφ₁ hm) hφ₂ ha r).trans (Finset.sum_congr rfl fun k' _ => expShift_at s hφ₁ hm r k'))
  exact congrArg₂ Ideal.div (expShift_at s hφ₁ hm r k) hden

/-! ## The scaled scores -/

/-- The score product contracts axis 1 of both operands. -/
theorem dotQK_nt : Cert.LibDotNT.IsNT dot_S256x64_S2048x64_S256x2048_1_1_0_0_n_n := ⟨rfl, rfl, rfl, rfl, rfl, rfl⟩

/-- q · kᵀ into a zero accumulator, times the splat of 1/8. -/
def scores (q : FVec Ideal S256x64 .bf16) (kk : FVec Ideal S2048x64 .bf16) : FVec Ideal S256x2048 .f32 :=
  mulf (matmul dot_S256x64_S2048x64_S256x2048_1_1_0_0_n_n none q kk (constant S256x2048 .f32 0x00000000#32))
    (broadcast S256x2048 (Scalar.ofBits .f32 0x3E000000#32))

/-- At (r, k): (Σ_d q[r,d] · k[k,d]) · (1/8). -/
theorem scores_at (q : FVec Ideal S256x64 .bf16) (kk : FVec Ideal S2048x64 .bf16) (r : Fin 256) (k : Fin 2048) :
    scores q kk (ix2 r k) = (∑ d : Fin 64, q (ix2 r d) * kk (ix2 k d)) * Cert.MHA.eighth := by
  show FloatOps.matmul dot_S256x64_S2048x64_S256x2048_1_1_0_0_n_n none q kk (constant S256x2048 .f32 0x00000000#32) (ix2 r k)
      * Cert.MHA.eighth = _
  rw [Ideal.matmul_constant_zero_apply]
  exact congrArg (· * Cert.MHA.eighth)
    (Cert.LibDotNT.sum_contr dot_S256x64_S2048x64_S256x2048_1_1_0_0_n_n dotQK_nt (fun i j => q i * kk j) (ix2 r k))

/-! ## The context product -/

/-- The context product contracts the weights' axis 1 with the values' axis 0. -/
theorem dotPV_plain : Cert.LibPlainDot.IsPlain dot_S256x2048_S2048x64_S256x64_1_0_0_1_n_n := ⟨rfl, rfl, rfl, rfl, rfl, rfl⟩

/-- weights · v into a zero accumulator, with the format changes around it and a leading unit axis added. -/
def ctxOf (w : FVec Ideal S256x2048 .f32) (v : FVec Ideal S2048x64 .bf16) : FVec Ideal S1x256x64 .bf16 :=
  shapeCast S1x256x64
    (truncf .bf16 (matmul dot_S256x2048_S2048x64_S256x64_1_0_0_1_n_n none (truncf .bf16 w bitsLt_bf16_f32) v
      (constant S256x64 .f32 0x00000000#32)) bitsLt_bf16_f32)
    shapeCasts_S256x64_S1x256x64

/-- At (0, r, d): Σ_k w[r,k] · v[k,d]. -/
theorem ctxOf_at (w : FVec Ideal S256x2048 .f32) (v : FVec Ideal S2048x64 .bf16) (r : Fin 256) (d : Fin 64) :
    ctxOf w v (ix3 (0 : Fin 1) r d) = ∑ k : Fin 2048, w (ix2 r k) * v (ix2 k d) := by
  unfold ctxOf
  rw [shapeCast_ab_1ab_apply]
  show FloatOps.matmul dot_S256x2048_S2048x64_S256x64_1_0_0_1_n_n none (truncf .bf16 w bitsLt_bf16_f32) v
      (constant S256x64 .f32 0x00000000#32) (ix2 r d) = _
  rw [Ideal.matmul_constant_zero_apply]
  exact Cert.LibPlainDot.sum_contr dot_S256x2048_S2048x64_S256x64_1_0_0_1_n_n dotPV_plain (fun i j => w i * v j) (ix2 r d)

/-! ## The lanes of a head -/

/-- The lanes from o = 64 hi of the query block with its unit axis dropped, at (r, d): the block at (0, r, 64 hi + d). -/
theorem qslice_at (o : Nat) (hi : Fin 2) (ho : o = hi.val * 64) (v0 : Vec Ideal S1x256x128 .bf16)
    (h : S256x128.Slices ![0, o] S256x64) (r : Fin 256) (d : Fin 64) :
    extractStridedSlice S256x64 ![0, o] (k3_pay4 (F := Ideal) v0) h (ix2 r d) = v0 (ix3 (0 : Fin 1) r (lane hi d)) :=
  (slice2_axis1_apply o (k3_pay4 (F := Ideal) v0) h r d (lane hi d) (by subst ho; rfl)).trans
    (shapeCast_1ab_ab_apply v0 shapeCasts_S1x256x128_S256x128 r (lane hi d))

/-- The same of a key block, at (k, d): the block at (0, k, 64 hi + d). -/
theorem kslice_at (o : Nat) (hi : Fin 2) (ho : o = hi.val * 64) (v2 : Vec Ideal S1x2048x128 .bf16)
    (h : S2048x128.Slices ![0, o] S2048x64) (k : Fin 2048) (d : Fin 64) :
    extractStridedSlice S2048x64 ![0, o] (k3_pay5 (F := Ideal) v2) h (ix2 k d) = v2 (ix3 (0 : Fin 1) k (lane hi d)) :=
  (slice2_axis1_apply o (k3_pay5 (F := Ideal) v2) h k d (lane hi d) (by subst ho; rfl)).trans
    (shapeCast_1ab_ab_apply v2 shapeCasts_S1x2048x128_S2048x128 k (lane hi d))

/-- The same of a value block. -/
theorem vslice_at (o : Nat) (hi : Fin 2) (ho : o = hi.val * 64) (v4 : Vec Ideal S1x2048x128 .bf16)
    (h : S2048x128.Slices ![0, o] S2048x64) (k : Fin 2048) (d : Fin 64) :
    extractStridedSlice S2048x64 ![0, o] (k3_pay6 (F := Ideal) v4) h (ix2 k d) = v4 (ix3 (0 : Fin 1) k (lane hi d)) :=
  (slice2_axis1_apply o (k3_pay6 (F := Ideal) v4) h k d (lane hi d) (by subst ho; rfl)).trans
    (shapeCast_1ab_ab_apply v4 shapeCasts_S1x2048x128_S2048x128 k (lane hi d))

/-! ## The weights and the context of one head -/

/-- If q and kk read head hi's lanes of the query and key blocks, the softmax of their scaled scores at (r, k) is the
    head's attention weight. -/
theorem attn_of (q : FVec Ideal S256x64 .bf16) (kk : FVec Ideal S2048x64 .bf16)
    (x0 : S1x256x128.Idx → EReal) (x1 : S1x2048x128.Idx → EReal) (hi : Fin 2)
    (hq : ∀ r d, q (ix2 r d) = x0 (ix3 (0 : Fin 1) r (lane hi d)))
    (hk : ∀ k d, kk (ix2 k d) = x1 (ix3 (0 : Fin 1) k (lane hi d)))
    (hφ₁ : FKind.Formats .f32) (hm : (0xFF800000#32 : BitVec 32) = FKind.maximumf.neutral .f32 hφ₁)
    (hφ₂ : FKind.Formats .f32) (ha : (0x00000000#32 : BitVec 32) = FKind.add.neutral .f32 hφ₂)
    (r : Fin 256) (k : Fin 2048) :
    smx (scores q kk) hφ₁ hm hφ₂ ha (ix2 r k) = blkAttn x0 x1 hi r k := by
  refine (smx_at (scores q kk) hφ₁ hm hφ₂ ha r k).trans ?_
  have hs : (fun k' => scores q kk (ix2 r k')) = blkScore x0 x1 hi r := funext fun k' =>
    (scores_at q kk r k').trans (congrArg (· * Cert.MHA.eighth)
      (Finset.sum_congr rfl fun d _ => by rw [hq r d, hk k' d]))
  rw [hs]
  rfl

/-- With v reading the head's lanes of the value block as well, the context product at (0, r, d) is the head's context. -/
theorem ctx_of (q : FVec Ideal S256x64 .bf16) (kk v : FVec Ideal S2048x64 .bf16)
    (x0 : S1x256x128.Idx → EReal) (x1 x2 : S1x2048x128.Idx → EReal) (hi : Fin 2)
    (hq : ∀ r d, q (ix2 r d) = x0 (ix3 (0 : Fin 1) r (lane hi d)))
    (hk : ∀ k d, kk (ix2 k d) = x1 (ix3 (0 : Fin 1) k (lane hi d)))
    (hv : ∀ k d, v (ix2 k d) = x2 (ix3 (0 : Fin 1) k (lane hi d)))
    (hφ₁ : FKind.Formats .f32) (hm : (0xFF800000#32 : BitVec 32) = FKind.maximumf.neutral .f32 hφ₁)
    (hφ₂ : FKind.Formats .f32) (ha : (0x00000000#32 : BitVec 32) = FKind.add.neutral .f32 hφ₂)
    (r : Fin 256) (d : Fin 64) :
    ctxOf (smx (scores q kk) hφ₁ hm hφ₂ ha) v (ix3 (0 : Fin 1) r d) = blkCtx x0 x1 x2 hi r d := by
  refine (ctxOf_at _ v r d).trans ?_
  exact Finset.sum_congr rfl fun k _ => by rw [attn_of q kk x0 x1 hi hq hk hφ₁ hm hφ₂ ha r k, hv k d]

/-! ## The four stored payloads -/

/-- The weights of the pair's first head, at (0, 0, r, k). -/
theorem attn_piece0 (v0 : Vec Ideal S1x256x128 .bf16) (v2 : Vec Ideal S1x2048x128 .bf16) (r : Fin 256) (k : Fin 2048) :
    k3_pay8 (F := Ideal) v0 v2 (ix4 (0 : Fin 1) (0 : Fin 1) r k) = blkAttn v0 v2 0 r k :=
  (shapeCast_ab_11ab_apply (k3_pay7 (F := Ideal) v0 v2) shapeCasts_S256x2048_S1x1x256x2048 0 0 r k).trans
    (attn_of _ _ v0 v2 0 (qslice_at 0 0 rfl v0 slices_S256x128_o0_0_S256x64) (kslice_at 0 0 rfl v2 slices_S2048x128_o0_0_S2048x64)
      (.inl rfl) rfl (.inl rfl) rfl r k)

/-- The weights of the pair's second head, at (0, 0, r, k). -/
theorem attn_piece1 (v0 : Vec Ideal S1x256x128 .bf16) (v2 : Vec Ideal S1x2048x128 .bf16) (r : Fin 256) (k : Fin 2048) :
    k3_pay2 (F := Ideal) (k3_pay10 v0) (k3_pay11 v2) (constant S256x2048 .f32 0x00000000#32) (ix4 (0 : Fin 1) (0 : Fin 1) r k)
      = blkAttn v0 v2 1 r k :=
  (shapeCast_ab_11ab_apply (k3_pay1 (F := Ideal) (k3_pay10 v0) (k3_pay11 v2) (constant S256x2048 .f32 0x00000000#32))
      shapeCasts_S256x2048_S1x1x256x2048 0 0 r k).trans
    (attn_of _ _ v0 v2 1 (qslice_at 64 1 rfl v0 slices_S256x128_o0_64_S256x64) (kslice_at 64 1 rfl v2 slices_S2048x128_o0_64_S2048x64)
      (.inl rfl) rfl (.inl rfl) rfl r k)

/-- The context of the pair's first head, at (0, r, d). -/
theorem ctx_piece0 (v0 : Vec Ideal S1x256x128 .bf16) (v2 v4 : Vec Ideal S1x2048x128 .bf16) (r : Fin 256) (d : Fin 64) :
    k3_pay9 (F := Ideal) v0 v2 v4 (ix3 (0 : Fin 1) r d) = blkCtx v0 v2 v4 0 r d :=
  ctx_of _ _ _ v0 v2 v4 0 (qslice_at 0 0 rfl v0 slices_S256x128_o0_0_S256x64) (kslice_at 0 0 rfl v2 slices_S2048x128_o0_0_S2048x64)
    (vslice_at 0 0 rfl v4 slices_S2048x128_o0_0_S2048x64) (.inl rfl) rfl (.inl rfl) rfl r d

/-- The context of the pair's second head, at (0, r, d). -/
theorem ctx_piece1 (v0 : Vec Ideal S1x256x128 .bf16) (v2 v4 : Vec Ideal S1x2048x128 .bf16) (r : Fin 256) (d : Fin 64) :
    k3_pay3 (F := Ideal) (k3_pay10 v0) (k3_pay11 v2) (k3_pay12 v4) (constant S256x2048 .f32 0x00000000#32) (ix3 (0 : Fin 1) r d)
      = blkCtx v0 v2 v4 1 r d :=
  ctx_of _ _ _ v0 v2 v4 1 (qslice_at 64 1 rfl v0 slices_S256x128_o0_64_S256x64) (kslice_at 64 1 rfl v2 slices_S2048x128_o0_64_S2048x64)
    (vslice_at 64 1 rfl v4 slices_S2048x128_o0_64_S2048x64) (.inl rfl) rfl (.inl rfl) rfl r d

end Cert.KernelIdeal.Body

end
-- ==== Proof.KernelRun.lean ====
/-
  The idealized kernel's run with its two result arrays NAMED. The program is five kernel launches among
  stretches of host operations (reshapes, changes of float format); the contents of every buffer at each boundary
  are a fold from the launch memory (the contents `W0` … `W11` of the frame module). Every weakly fair execution
  terminates with each unscoped buffer at the last boundary's contents `W11`: in particular the two results, and the
  eleven arguments, which no launch and no host operation writes.
-/
import proofs.«147473_j89876485636546_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result arrays at the last
    boundary's contents and the arguments as launched. -/
theorem run_named : θ_run defs (onTc (τ := τ) (main (F := F))) ⟨m, fun _ => 0, ρ⟩ (fun r => ∀ c : Dev nD,
      r.2.mem ((c.tc : Thread nD τ).loc main_v20) = W11 m ρ c (Proc.devRef .tc main_v20)
      ∧ r.2.mem ((c.tc : Thread nD τ).loc main_v15_1) = W11 m ρ c (Proc.devRef .tc main_v15_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v20 (by decide)),
       h c _ (mem_uc main_v15_1 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.Run

end
-- ==== Proof.KValue.lean ====
/-
  The kernel program's two results are the specification's two functions of the argument arrays.

  The kernel's linear pipeline flattens [2, 2048, 1024] to 4096 rows, applies the linear layer row by row, and
  unflattens: row 2048b + s of the flattened matrix is (b, s, ·), so entry (b, s, e) of the pipeline's result is
  Σ_d x[b,s,d] · w[e,d] + bias[e], the projection. The attention launch's arrays are the attention weights and the
  context of the three projected arrays by coordinates, and the last pipeline projects the context.
-/
import proofs.«147473_j89876485636546_2_alg».proof.Proof.KFold
import proofs.«147473_j89876485636546_2_alg».proof.Proof.KAttnBody
import proofs.«147473_j89876485636546_2_alg».proof.Proof.KernelRun
import proofs.«147473_j89876485636546_2_alg».proof.Proof.Attention
import Idealize.ShloMosaic.Lib.ValueLayout

set_option maxRecDepth 16384

noncomputable section

namespace Cert.KernelIdeal.Result

open Cert.KernelIdeal Cert.KernelIdeal.Gen Cert.KernelIdeal.Body Cert.KernelIdeal.Fold
open Idealize.ShloMosaic Idealize.ShloMosaic.TcCoe Idealize.ShloMosaic.ValueIdx Idealize.SL.Sem

/-- The attention body's four stored pieces read at an index. -/
theorem pieceFacts : PieceFacts := ⟨attn_piece0, attn_piece1, ctx_piece0, ctx_piece1⟩

/-- The linear pipeline at (b, s, e) is the projection. -/
theorem projK_apply (x : S2x2048x1024.Idx → EReal) (w : S1024x1024.Idx → EReal) (b : S1024.Idx → EReal)
    (bb : Fin 2) (s : Fin 2048) (e : Fin 1024) :
    projK x w b (ix3 bb s e) = Cert.MHA.proj (Cert.MHA.act x) w b bb s e := by
  have hr : bb.val * 2048 + s.val < 4096 := by have := bb.isLt; have := s.isLt; omega
  unfold projK
  rw [shapeCast_apply _ shapeCasts_S4096x1024_S2x2048x1024 (ix3 bb s e) (ix2 (⟨bb.val * 2048 + s.val, hr⟩ : Fin 4096) e) (by
    rw [Shape.rowMajor_val_two, Shape.rowMajor_val_three]; rfl)]
  show (∑ k : Fin 1024, shapeCast S4096x1024 x shapeCasts_S2x2048x1024_S4096x1024 (ix2 (⟨bb.val * 2048 + s.val, hr⟩ : Fin 4096) k) * w (ix2 e k))
        + shapeCast S1x1024 b shapeCasts_S1024_S1x1024 (ix2 (0 : Fin 1) e) = (∑ d : Fin 1024, x (ix3 bb s d) * w (ix2 e d)) + b (ix1 e)
  rw [shapeCast_a_1a_apply]
  refine congrArg (· + b (ix1 e)) (Finset.sum_congr rfl fun k _ => ?_)
  rw [shapeCast_apply x shapeCasts_S2x2048x1024_S4096x1024 (ix2 (⟨bb.val * 2048 + s.val, hr⟩ : Fin 4096) k) (ix3 bb s k) (by
    rw [Shape.rowMajor_val_three, Shape.rowMajor_val_two]; rfl)]

/-- The pipeline's result by coordinates is the projection of the argument by coordinates. -/
theorem act_projK (x : S2x2048x1024.Idx → EReal) (w : S1024x1024.Idx → EReal) (b : S1024.Idx → EReal) :
    Cert.MHA.act (projK x w b) = Cert.MHA.proj (Cert.MHA.act x) w b :=
  funext fun bb => funext fun s => funext fun e => projK_apply x w b bb s e

/-- The kernel's attention-weights array is the specification's. -/
theorem attn_eq (q k : S2x2048x1024.Idx → EReal) (wq : S1024x1024.Idx → EReal) (bq : S1024.Idx → EReal)
    (wk : S1024x1024.Idx → EReal) (bk : S1024.Idx → EReal) :
    Launch3.attnA (projK q wq bq) (projK k wk bk) = Cert.MHA.attnArr q k wq bq wk bk := by
  funext i
  unfold Launch3.attnA Cert.MHA.attnArr
  rw [act_projK, act_projK]
  rfl

/-- The kernel's output array is the specification's. -/
theorem out_eq (q k v : S2x2048x1024.Idx → EReal) (wq : S1024x1024.Idx → EReal) (bq : S1024.Idx → EReal)
    (wk : S1024x1024.Idx → EReal) (bk : S1024.Idx → EReal) (wv : S1024x1024.Idx → EReal) (bv : S1024.Idx → EReal)
    (wo : S1024x1024.Idx → EReal) (bo : S1024.Idx → EReal) :
    projK (Launch3.ctxA (projK q wq bq) (projK k wk bk) (projK v wv bv)) wo bo = Cert.MHA.outArr q k v wq bq wk bk wv bv wo bo := by
  funext i
  have hc : Cert.MHA.act (Launch3.ctxA (projK q wq bq) (projK k wk bk) (projK v wv bv))
      = Cert.MHA.ctx (Cert.MHA.proj (Cert.MHA.act q) wq bq) (Cert.MHA.proj (Cert.MHA.act k) wk bk) (Cert.MHA.proj (Cert.MHA.act v) wv bv) := by
    rw [← act_projK, ← act_projK, ← act_projK]
    rfl
  calc projK (Launch3.ctxA (projK q wq bq) (projK k wk bk) (projK v wv bv)) wo bo i
      = projK (Launch3.ctxA (projK q wq bq) (projK k wk bk) (projK v wv bv)) wo bo (ix3 (i 0) (i 1) (i 2)) := congrArg _ (eq_ix3 i)
    _ = Cert.MHA.proj (Cert.MHA.act (Launch3.ctxA (projK q wq bq) (projK k wk bk) (projK v wv bv))) wo bo (i 0) (i 1) (i 2) := projK_apply _ _ _ _ _ _
    _ = Cert.MHA.outArr q k v wq bq wk bk wv bv wo bo i := by rw [hc]; rfl

variable (m : (ℓ : Loc nD τ sig) → Buf (Elt Ideal) ℓ) (ρ : Dev nD → PrngReg)

/-- Every weakly fair execution of the idealized kernel program terminates, nothing faulting, with the two results at
    the specification's functions of the argument arrays and the arguments as launched. -/
theorem run : θ_run defs (onTc (τ := τ) (main (F := Ideal))) ⟨m, fun _ => 0, ρ⟩ (fun r => ∀ c : Dev nD,
      r.2.mem ((c.tc : Thread nD τ).loc main_v20)
        = Cert.MHA.outArr (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10))
      ∧ r.2.mem ((c.tc : Thread nD τ).loc main_v15_1)
        = Cert.MHA.attnArr (m ((c.tc : Thread nD τ).loc main_arg0)) (m ((c.tc : Thread nD τ).loc main_arg1))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨(h c).1.trans ((out_result m ρ c pieceFacts).trans (out_eq _ _ _ _ _ _ _ _ _ _ _)),
       (h c).2.1.trans ((attn_result m ρ c pieceFacts).trans (attn_eq _ _ _ _ _ _)),
       (h c).2.2⟩)
    (Cert.KernelIdeal.Run.run_named m ρ)

end Cert.KernelIdeal.Result

end
-- ==== Proof.RefValue.lean ====
/-
  The reference program's two results, read at an index, are the specification's two functions.

  Each stage of the reference is read at explicit coordinates: a linear layer at (b, s, e); the head split, which reads
  head h, lane d at model column 64 h + d; the scaled score at (b, h, q, k); the row maximum; the shifted exponential;
  the attention weight; the context at (b, q, e), whose head merge reads column e at head e / 64, lane e % 64; and the
  final linear layer.
-/
import proofs.«147473_j89876485636546_2_alg».proof.Proof.Gen.ReferenceIdeal.Read
import proofs.«147473_j89876485636546_2_alg».proof.Proof.Attention

noncomputable section

namespace Cert.ReferenceIdeal.RefValue

open Cert.ReferenceIdeal Cert.ReferenceIdeal.Gen Cert.ReferenceIdeal.Read Idealize.ShloMosaic Idealize.ShloMosaic.ValueIdx Cert.MHA

/-- An activation array of the reference. -/
abbrev A3 : Type := (⟨S2x2048x1024, .f32⟩ : BufTy).Contents (Elt Ideal)
/-- A weight matrix of the reference. -/
abbrev W2 : Type := (⟨S1024x1024, .f32⟩ : BufTy).Contents (Elt Ideal)
/-- A bias vector of the reference. -/
abbrev V1 : Type := (⟨S1024, .f32⟩ : BufTy).Contents (Elt Ideal)

/-! ## The constants -/

/-- The word 0x42800000 denotes 64. -/
theorem ofBits_64 : Ideal.ofBits .f32 0x42800000#32 = ((64 : ℝ) : EReal) := by
  simp [Ideal.ofBits, Ideal.ieee, -EReal.coe_mul]; norm_num

/-- The word 0x3E000000 denotes 1/8. -/
theorem ofBits_eighth : Ideal.ofBits .f32 0x3E000000#32 = ((1 / 8 : ℝ) : EReal) := by
  simp [Ideal.ofBits, Ideal.ieee, -EReal.coe_mul]; norm_num

/-- √64 = 8. -/
theorem sqrt_64 : Ideal.sqrt ((64 : ℝ) : EReal) = ((8 : ℝ) : EReal) := by
  rw [Ideal.sqrt_coe, if_neg (by norm_num)]
  rw [show (64 : ℝ) = 8 ^ 2 by norm_num, Real.sqrt_sq (by norm_num)]

/-- Dividing by √64 is multiplying by 1/8, on every extended real. -/
theorem div_sqrt_64 (x : EReal) :
    Ideal.div x (Ideal.sqrt (Ideal.ofBits .f32 0x42800000#32)) = x * eighth := by
  rw [ofBits_64, sqrt_64, Ideal.div_coe (by norm_num : (8 : ℝ) ≠ 0)]
  show _ = x * Ideal.ofBits .f32 0x3E000000#32
  rw [ofBits_eighth]

/-! ## A linear layer -/

theorem lidx_v0 (b : Fin 2) (s : Fin 2048) (e d : Fin 1024) : lidx_main_v0 (ix3 b s e) d = ix3 b s d :=
  funext fun a => Fin.ext (by match a with | ⟨0, _⟩ => rfl | ⟨1, _⟩ => rfl | ⟨2, _⟩ => rfl)

theorem ridx_v0 (b : Fin 2) (s : Fin 2048) (e d : Fin 1024) : ridx_main_v0 (ix3 b s e) d = ix2 e d :=
  funext fun a => Fin.ext (by match a with | ⟨0, _⟩ => rfl | ⟨1, _⟩ => rfl)

theorem idx_v1_v2 (b : Fin 2) (s : Fin 2048) (e : Fin 1024) : idx_main_v1 (idx_main_v2 (ix3 b s e)) = ix1 e :=
  funext fun a => Fin.ext (by match a with | ⟨0, _⟩ => rfl)

/-- The first linear layer at (b, s, e): the sum over d of x[b,s,d] · w[e,d], plus the bias at e. -/
theorem proj_read (x : A3) (w : W2) (c : V1) (b : Fin 2) (s : Fin 2048) (e : Fin 1024) :
    val_main_v3 (F := Ideal) x w c (ix3 b s e) = proj (act x) w c b s e := by
  rw [val_main_v3_apply, val_main_v0_apply, val_main_v2_apply, val_main_v1_apply, idx_v1_v2]
  simp only [Ideal.addf_def, lidx_v0, ridx_v0]
  rfl

/-! ## The head split -/

/-- Reshaping [2,2048,1024] to [2,2048,16,64] and exchanging the two middle axes reads head h, lane d of position s
    at model column 64 h + d. -/
theorem idx_v4_v5 (b : Fin 2) (h : Fin 16) (s : Fin 2048) (d : Fin 64) :
    idx_main_v4 (idx_main_v5 (ix4 b h s d)) = ix3 b s (hcol h d) :=
  funext fun a => Fin.ext (by
    have hb := b.isLt; have hh := h.isLt; have hs := s.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show (((b.val * 2048 + s.val) * 16 + h.val) * 64 + d.val) % 1024 = h.val * 64 + d.val; omega)

/-- A projection, split into heads, at (b, h, s, d). -/
theorem heads_read (x : A3) (w : W2) (c : V1) (b : Fin 2) (h : Fin 16) (s : Fin 2048) (d : Fin 64) :
    val_main_v5 (F := Ideal) x w c (ix4 b h s d) = proj (act x) w c b s (hcol h d) := by
  rw [val_main_v5_apply, val_main_v4_apply, idx_v4_v5, proj_read]

/-- The three projections are the same function of their arguments. -/
theorem v11_eq (x : A3) (w : W2) (c : V1) : val_main_v11 (F := Ideal) x w c = val_main_v5 (F := Ideal) x w c := rfl
theorem v17_eq (x : A3) (w : W2) (c : V1) : val_main_v17 (F := Ideal) x w c = val_main_v5 (F := Ideal) x w c := rfl

/-! ## The scores -/

theorem lidx_v18 (b : Fin 2) (h : Fin 16) (q k : Fin 2048) (d : Fin 64) : lidx_main_v18 (ix4 b h q k) d = ix4 b h q d :=
  funext fun a => Fin.ext (by match a with | ⟨0, _⟩ => rfl | ⟨1, _⟩ => rfl | ⟨2, _⟩ => rfl | ⟨3, _⟩ => rfl)

theorem ridx_v18 (b : Fin 2) (h : Fin 16) (q k : Fin 2048) (d : Fin 64) : ridx_main_v18 (ix4 b h q k) d = ix4 b h k d :=
  funext fun a => Fin.ext (by match a with | ⟨0, _⟩ => rfl | ⟨1, _⟩ => rfl | ⟨2, _⟩ => rfl | ⟨3, _⟩ => rfl)

/-- The scaled score at (b, h, q, k). -/
theorem score_read (x0 x1 : A3) (x3 : W2) (x4 : V1) (x5 : W2) (x6 : V1) (b : Fin 2) (h : Fin 16) (q k : Fin 2048) :
    val_main_v21 (F := Ideal) x0 x1 x3 x4 x5 x6 (ix4 b h q k)
      = score (proj (act x0) x3 x4) (proj (act x1) x5 x6) b h q k := by
  rw [val_main_v21_apply, val_main_v18_apply, val_main_v20_apply, val_main_v19_apply, val_main_cst_apply, v11_eq]
  simp only [lidx_v18, ridx_v18, heads_read, Ideal.hostDivf_def, Ideal.hostUnary_sqrt_def, Ideal.ofBits_def]
  rw [div_sqrt_64]
  rfl

/-! ## The row maximum -/

/-- Dropping the last axis of [2,16,2048,2048] leaves [2,16,2048]. -/
theorem row_reduces : S2x16x2048x2048.Reduces [3] S2x16x2048 := by decide

/-- The source index over (b, h, q) with k on the reduced axis is (b, h, q, k). -/
theorem lift_row (b : Fin 2) (h : Fin 16) (q k : Fin 2048) : row_reduces.lift (ix3 b h q) k = ix4 b h q k :=
  funext fun a => Fin.ext (by match a with | ⟨0, _⟩ => rfl | ⟨1, _⟩ => rfl | ⟨2, _⟩ => rfl | ⟨3, _⟩ => rfl)

/-- The maximum-reduction of a score row from −∞ at (b, h, q) is the fold of max over the row. -/
theorem reduce_max_read (x0 x1 : A3) (x3 : W2) (x4 : V1) (x5 : W2) (x6 : V1) (b : Fin 2) (h : Fin 16) (q : Fin 2048) :
    val_main_v22 (F := Ideal) x0 x1 x3 x4 x5 x6 (ix3 b h q)
      = rowMax (score (proj (act x0) x3 x4) (proj (act x1) x5 x6) b h q) := by
  unfold val_main_v22
  have e := Host.reduce_eq_fold_single (a := (3 : Fin 4)) (FloatOps.maximumf (F := Ideal) (φ := .f32))
    (val_main_v21 (F := Ideal) x0 x1 x3 x4 x5 x6) (val_main_cst_0 (F := Ideal)) reducesTo_S2x16x2048x2048_S2x16x2048_d3
    row_reduces h_S_ (ix3 b h q)
  refine e.trans ?_
  unfold rowMax
  have hrow : (val_main_v21 (F := Ideal) x0 x1 x3 x4 x5 x6 ∘ row_reduces.lift (ix3 b h q))
      = score (proj (act x0) x3 x4) (proj (act x1) x5 x6) b h q := funext fun (k : Fin 2048) =>
    (congrArg (val_main_v21 (F := Ideal) x0 x1 x3 x4 x5 x6) (lift_row b h q k)).trans (score_read x0 x1 x3 x4 x5 x6 b h q k)
  rw [hrow]
  rfl

/-- The reference's row maximum at (b, h, q): the maximum with −∞ of the reduction changes nothing, because a fold of
    max from a start value is at least that value. -/
theorem max_read (x0 x1 : A3) (x3 : W2) (x4 : V1) (x5 : W2) (x6 : V1) (b : Fin 2) (h : Fin 16) (q : Fin 2048) :
    val_main_v24 (F := Ideal) x0 x1 x3 x4 x5 x6 (ix3 b h q)
      = rowMax (score (proj (act x0) x3 x4) (proj (act x1) x5 x6) b h q) := by
  rw [val_main_v24_apply, val_main_v23_apply, val_main_cst_1_apply, reduce_max_read]
  simp only [Ideal.maximumf_def, Ideal.ofBits_def]
  exact max_eq_right ((Finset.le_fold_max _).2 (Or.inl le_rfl))

/-! ## The softmax -/

theorem idx_v25_v26 (b : Fin 2) (h : Fin 16) (q k : Fin 2048) : idx_main_v25 (idx_main_v26 (ix4 b h q k)) = ix3 b h q :=
  funext fun a => Fin.ext (by match a with | ⟨0, _⟩ => rfl | ⟨1, _⟩ => rfl | ⟨2, _⟩ => rfl)

theorem idx_v30_v31 (b : Fin 2) (h : Fin 16) (q k : Fin 2048) : idx_main_v30 (idx_main_v31 (ix4 b h q k)) = ix3 b h q :=
  funext fun a => Fin.ext (by match a with | ⟨0, _⟩ => rfl | ⟨1, _⟩ => rfl | ⟨2, _⟩ => rfl)

theorem idx_v29 (b : Fin 2) (h : Fin 16) (q k : Fin 2048) : idx_main_v29 (ix3 b h q) k = ix4 b h q k :=
  funext fun a => Fin.ext (by match a with | ⟨0, _⟩ => rfl | ⟨1, _⟩ => rfl | ⟨2, _⟩ => rfl | ⟨3, _⟩ => rfl)

/-- The exponential of a score shifted by its row's maximum, at (b, h, q, k). -/
theorem exp_read (x0 x1 : A3) (x3 : W2) (x4 : V1) (x5 : W2) (x6 : V1) (b : Fin 2) (h : Fin 16) (q k : Fin 2048) :
    val_main_v28 (F := Ideal) x0 x1 x3 x4 x5 x6 (ix4 b h q k)
      = Ideal.exp (score (proj (act x0) x3 x4) (proj (act x1) x5 x6) b h q k
          - rowMax (score (proj (act x0) x3 x4) (proj (act x1) x5 x6) b h q)) := by
  rw [val_main_v28_apply, val_main_v27_apply, val_main_v26_apply, val_main_v25_apply, idx_v25_v26, max_read, score_read]
  simp only [Ideal.hostUnary_exp_def, Ideal.subf_def]

/-- The sum of a row's shifted exponentials, from the zero word, at (b, h, q). -/
theorem sum_read (x0 x1 : A3) (x3 : W2) (x4 : V1) (x5 : W2) (x6 : V1) (b : Fin 2) (h : Fin 16) (q : Fin 2048) :
    val_main_v29 (F := Ideal) x0 x1 x3 x4 x5 x6 (ix3 b h q)
      = ∑ k' : Fin 2048, Ideal.exp (score (proj (act x0) x3 x4) (proj (act x1) x5 x6) b h q k'
          - rowMax (score (proj (act x0) x3 x4) (proj (act x1) x5 x6) b h q)) := by
  rw [val_main_v29_apply, val_main_cst_2_apply]
  simp only [idx_v29, exp_read, Ideal.ofBits_def, Ideal.ofBits_zero_f32, zero_add]

/-- The attention weight at (b, h, q, k). -/
theorem attn_read (x0 x1 : A3) (x3 : W2) (x4 : V1) (x5 : W2) (x6 : V1) (b : Fin 2) (h : Fin 16) (q k : Fin 2048) :
    val_main_v32 (F := Ideal) x0 x1 x3 x4 x5 x6 (ix4 b h q k)
      = attn (proj (act x0) x3 x4) (proj (act x1) x5 x6) b h q k := by
  rw [val_main_v32_apply, val_main_v31_apply, val_main_v30_apply, idx_v30_v31, sum_read, exp_read]
  simp only [Ideal.hostDivf_def]
  rfl

/-- The reference's attention weights are the specification's. -/
theorem attn_eq (x0 x1 : (⟨S2x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) :
    Cert.ReferenceIdeal.Read.val_main_v32 (F := Ideal) x0 x1 x3 x4 x5 x6 = Cert.MHA.attnArr x0 x1 x3 x4 x5 x6 := by
  funext i
  obtain ⟨b, h, q, k, rfl⟩ : ∃ (b : Fin 2) (h : Fin 16) (q k : Fin 2048), i = ix4 b h q k := ⟨i 0, i 1, i 2, i 3, eq_ix4 i⟩
  exact attn_read x0 x1 x3 x4 x5 x6 b h q k

/-! ## The context -/

/-- Exchanging the two middle axes of [2,16,2048,64] and reshaping to [2,2048,1024] reads column e of position q at
    head e / 64, lane e % 64. -/
theorem idx_v34_v35 (b : Fin 2) (q : Fin 2048) (e : Fin 1024) :
    idx_main_v34 (idx_main_v35 (ix3 b q e)) = ix4 b (headOf e) q ⟨e.val % 64, Nat.mod_lt _ (by decide)⟩ :=
  funext fun a => Fin.ext (by
    have hb := b.isLt; have hq := q.isLt; have he := e.isLt
    match a with
    | ⟨0, _⟩ => show ((b.val * 2048 + q.val) * 1024 + e.val) / 2097152 = b.val; omega
    | ⟨1, _⟩ => show ((b.val * 2048 + q.val) * 1024 + e.val) / 64 % 16 = e.val / 64; omega
    | ⟨2, _⟩ => show ((b.val * 2048 + q.val) * 1024 + e.val) / 1024 % 2048 = q.val; omega
    | ⟨3, _⟩ => show ((b.val * 2048 + q.val) * 1024 + e.val) % 64 = e.val % 64; omega)

/-- Column 64 · (e / 64) + e % 64 is e. -/
theorem hcol_headOf (e : Fin 1024) : hcol (headOf e) ⟨e.val % 64, Nat.mod_lt _ (by decide)⟩ = e :=
  Fin.ext (by show e.val / 64 * 64 + e.val % 64 = e.val; omega)

theorem lidx_v33 (b : Fin 2) (h : Fin 16) (q : Fin 2048) (d : Fin 64) (k : Fin 2048) : lidx_main_v33 (ix4 b h q d) k = ix4 b h q k :=
  funext fun a => Fin.ext (by match a with | ⟨0, _⟩ => rfl | ⟨1, _⟩ => rfl | ⟨2, _⟩ => rfl | ⟨3, _⟩ => rfl)

theorem ridx_v33 (b : Fin 2) (h : Fin 16) (q : Fin 2048) (d : Fin 64) (k : Fin 2048) : ridx_main_v33 (ix4 b h q d) k = ix4 b h k d :=
  funext fun a => Fin.ext (by match a with | ⟨0, _⟩ => rfl | ⟨1, _⟩ => rfl | ⟨2, _⟩ => rfl | ⟨3, _⟩ => rfl)

/-- The context at (b, q, e): head e / 64's weights applied to value column e. -/
theorem ctx_read (x0 x1 x2 : A3) (x3 : W2) (x4 : V1) (x5 : W2) (x6 : V1) (x7 : W2) (x8 : V1)
    (b : Fin 2) (q : Fin 2048) (e : Fin 1024) :
    val_main_v35 (F := Ideal) x0 x1 x2 x3 x4 x5 x6 x7 x8 (ix3 b q e)
      = ctx (proj (act x0) x3 x4) (proj (act x1) x5 x6) (proj (act x2) x7 x8) b q e := by
  rw [val_main_v35_apply, val_main_v34_apply, idx_v34_v35, val_main_v33_apply, v17_eq]
  simp only [lidx_v33, ridx_v33, attn_read, heads_read, hcol_headOf]
  rfl

/-! ## The output -/

/-- The last linear layer is the first one's function, of the context. -/
theorem v39_eq (x0 x1 x2 : A3) (x3 : W2) (x4 : V1) (x5 : W2) (x6 : V1) (x7 : W2) (x8 : V1) (x9 : W2) (x10 : V1) :
    val_main_v39 (F := Ideal) x0 x1 x2 x3 x4 x5 x6 x7 x8 x9 x10
      = val_main_v3 (F := Ideal) (val_main_v35 (F := Ideal) x0 x1 x2 x3 x4 x5 x6 x7 x8) x9 x10 := rfl

/-- The context array, read by coordinates, is the specification's context. -/
theorem act_ctx (x0 x1 x2 : A3) (x3 : W2) (x4 : V1) (x5 : W2) (x6 : V1) (x7 : W2) (x8 : V1) :
    act (val_main_v35 (F := Ideal) x0 x1 x2 x3 x4 x5 x6 x7 x8)
      = ctx (proj (act x0) x3 x4) (proj (act x1) x5 x6) (proj (act x2) x7 x8) :=
  funext fun b => funext fun q => funext fun e => ctx_read x0 x1 x2 x3 x4 x5 x6 x7 x8 b q e

/-- The reference's output is the specification's. -/
theorem out_eq (x0 x1 x2 : (⟨S2x2048x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal)) (x9 : (⟨S1024x1024, .f32⟩ : BufTy).Contents (Elt Ideal))
    (x10 : (⟨S1024, .f32⟩ : BufTy).Contents (Elt Ideal)) :
    Cert.ReferenceIdeal.Read.val_main_v39 (F := Ideal) x0 x1 x2 x3 x4 x5 x6 x7 x8 x9 x10
      = Cert.MHA.outArr x0 x1 x2 x3 x4 x5 x6 x7 x8 x9 x10 := by
  funext i
  obtain ⟨b, s, e, rfl⟩ : ∃ (b : Fin 2) (s : Fin 2048) (e : Fin 1024), i = ix3 b s e := ⟨i 0, i 1, i 2, eq_ix3 i⟩
  rw [v39_eq, proj_read, act_ctx]
  rfl

end Cert.ReferenceIdeal.RefValue

end
-- ==== Proof.lean ====
/- Multi-head attention: a Pallas kernel program against its jnp reference, equal over the extended reals.

   Both programs compute, for B = 2 batches of S = 2048 positions, model width 1024 and 16 heads of width 64: the three
   projections y[b,s,e] = Σ_d x[b,s,d] · w[e,d] + bias[e] of q, k and v; per head the scaled scores
   (Σ_{d<64} Q[b,q,64h+d] · K[b,k,64h+d]) · (1/8); the softmax of each score row, exp(s − max s) / Σ exp(s − max s);
   the context Σ_k attn[b,h,q,k] · V[b,k,64h+d]; and the projection of the context. They return the output and the
   attention weights (Proof/Attention.lean states both as functions of the eleven argument arrays).

   The kernel program runs five launches among host reshapes: a linear kernel on 1024-row blocks of the flattened
   [4096, 1024] rows for each of q, k, v; an attention kernel over (batch, head pair, 256-row query block) that keeps
   the [2, 2048, 1024] layout and slices each 128-column block into its two heads; and the linear kernel again on the
   context. Over the extended reals its changes of float format are the identity and each matrix product into a zero
   accumulator is the plain contraction sum, so each launch's output blocks tile its array with the specification's
   values (Proof/KLaunch0 … KLaunch4 over the bodies read at an index in Proof/KLinear, Proof/KAttnBody), and the
   buffers in between are read back to the launch memory (Proof/KFold, Proof/KValue).

   The reference divides the scores by √64 where the kernel multiplies by 1/8: √64 = 8 and x / 8 = x · (1/8) on every
   extended real. It takes the row maximum once more against −∞, which changes nothing, since a maximum folded from a
   start value is at least that value. Its sums start from the zero word. Its head split is a reshape and a transpose
   that read column 64h + d (Proof/RefValue). No step needs the inputs finite: the two sides are one function of the
   same extended reals, sum by sum. The idealization rewrote no operation, so the preservation claim is trivial. -/
import proofs.«147473_j89876485636546_2_alg».proof.Defs
import proofs.«147473_j89876485636546_2_alg».proof.Proof.Gen.Kernel
import proofs.«147473_j89876485636546_2_alg».proof.Proof.Gen.Kernel.Skeleton
import proofs.«147473_j89876485636546_2_alg».proof.Proof.Gen.Kernel.Launch
import proofs.«147473_j89876485636546_2_alg».proof.Proof.Gen.Kernel.Points
import proofs.«147473_j89876485636546_2_alg».proof.Proof.Gen.Kernel.Frame
import proofs.«147473_j89876485636546_2_alg».proof.Proof.Gen.KernelIdeal
import proofs.«147473_j89876485636546_2_alg».proof.Proof.Gen.KernelIdeal.Skeleton
import proofs.«147473_j89876485636546_2_alg».proof.Proof.Gen.KernelIdeal.Launch
import proofs.«147473_j89876485636546_2_alg».proof.Proof.Gen.KernelIdeal.Points
import proofs.«147473_j89876485636546_2_alg».proof.Proof.Gen.KernelIdeal.Frame
import proofs.«147473_j89876485636546_2_alg».proof.Proof.Gen.ReferenceIdeal
import proofs.«147473_j89876485636546_2_alg».proof.Proof.Gen.Pre_finite_inputs
import proofs.«147473_j89876485636546_2_alg».proof.Proof.Gen.ReferenceIdeal.Run
import proofs.«147473_j89876485636546_2_alg».proof.Proof.Gen.ReferenceIdeal.Read
import proofs.«147473_j89876485636546_2_alg».proof.Proof.KValue
import proofs.«147473_j89876485636546_2_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The idealized reference runs and leaves its arguments as launched: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both idealized programs run and end with the output and the attention
    weights at the specification's two functions of the argument arrays. -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10⟩ := hagree c
    rw [Cert.ReferenceIdeal.Read.val_main_v39_eq, Cert.ReferenceIdeal.RefValue.out_eq, h0, h1, h2, h3, h4, h5, h6, h7, h8, h9, h10]
  · obtain ⟨h0, h1, h2, h3, h4, h5, h6, h7, h8, h9, h10⟩ := hagree c
    rw [Cert.ReferenceIdeal.Read.val_main_v32_eq, Cert.ReferenceIdeal.RefValue.attn_eq, h0, h1, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
